-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x512 : Shape := ⟨3, ![64, 1024, 512]⟩
abbrev S512x512 : Shape := ⟨2, ![512, 512]⟩
abbrev S512 : Shape := ⟨1, ![512]⟩
abbrev S_ : Shape := ⟨0, ![]⟩

class Facts : Prop where
  bcast_S_S64x1024x512 : S_.BroadcastsInDim S64x1024x512 (![] : Fin 0 → Fin S64x1024x512.rank)
  reducesTo_S64x1024x512_S_d0_1_2 : S64x1024x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512x512 .f32) (main_arg8 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg4 : FVec F S512 .f32) (main_arg5 : FVec F S512x512 .f32) (main_arg6 : FVec F S512 .f32) (main_arg7 : FVec F S512x512 .f32) (main_arg8 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S64x1024x512 .f32) (main_arg1 : FVec F S512x512 .f32) (main_arg2 : FVec F S512 .f32) (main_arg3 : FVec F S512x512 .f32) (main_arg4 : FVec F S512 .f32) (main_arg5 : FVec F S512x512 .f32) (main_arg6 : FVec F S512 .f32) (main_arg7 : FVec F S512x512 .f32) (main_arg8 : FVec F S512 .f32) : IVec S_ 1 :=
  let main_v0 : FVec F S64x1024x512 .f32 := Host.absf main_arg0
  let main_cst : FVec F S_ .f32 := constant S_ .f32 0x7F800000#32
  let main_v1 : FVec F S64x1024x512 .f32 := broadcastInDim S64x1024x512 ![] bcast_S_S64x1024x512 main_cst
  let main_v2 : IVec S64x1024x512 1 := cmpf .olt main_v0 main_v1
  let main_c : IVec S_ 1 := constantI S_ 1 1#1
  let main_v3 : IVec S_ 1 := (fun x v => Host.reduce IntOp.andi x v reducesTo_S64x1024x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_v13 main_v16
-- ==== Kernel.lean ====
abbrev S64x1024x512 : Shape := ⟨3, ![64, 1024, 512]⟩
abbrev S512x512 : Shape := ⟨2, ![512, 512]⟩
abbrev S512 : Shape := ⟨1, ![512]⟩
abbrev S512x1536 : Shape := ⟨2, ![512, 1536]⟩
abbrev S1536 : Shape := ⟨1, ![1536]⟩
abbrev S1x1536 : Shape := ⟨2, ![1, 1536]⟩
abbrev S1x512 : Shape := ⟨2, ![1, 512]⟩
abbrev S1024 : Shape := ⟨1, ![1024]⟩
abbrev S_ : Shape := ⟨0, ![]⟩
abbrev S1024x1 : Shape := ⟨2, ![1024, 1]⟩
abbrev S16 : Shape := ⟨1, ![16]⟩
abbrev S1x16 : Shape := ⟨2, ![1, 16]⟩
abbrev S1024x16 : Shape := ⟨2, ![1024, 16]⟩
abbrev S16x1024 : Shape := ⟨2, ![16, 1024]⟩
abbrev S1x1024x512 : Shape := ⟨3, ![1, 1024, 512]⟩
abbrev S1024x512 : Shape := ⟨2, ![1024, 512]⟩
abbrev S1024x1536 : Shape := ⟨2, ![1024, 1536]⟩
abbrev S16x512 : Shape := ⟨2, ![16, 512]⟩
abbrev S16x1 : Shape := ⟨2, ![16, 1]⟩

abbrev nBuf : Space → Nat
  | .hbm => 52
  | .vmem => 9
  | .smem => 0
  | _ => 0

abbrev bufTy : (tb : Table) → Fin (tcTables nBuf tb) → BufTy
  | .hbm, ⟨0, _⟩ => ⟨S64x1024x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S64x1024x512, .bf16⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S512x1536, .f32⟩
  | .hbm, ⟨14, _⟩ => ⟨S512x1536, .bf16⟩
  | .hbm, ⟨15, _⟩ => ⟨S1536, .f32⟩
  | .hbm, ⟨16, _⟩ => ⟨S1x1536, .f32⟩
  | .hbm, ⟨17, _⟩ => ⟨S512x512, .f32⟩
  | .hbm, ⟨18, _⟩ => ⟨S512x512, .bf16⟩
  | .hbm, ⟨19, _⟩ => ⟨S1x512, .f32⟩
  | .hbm, ⟨20, _⟩ => ⟨S1024, .i32⟩
  | .hbm, ⟨21, _⟩ => ⟨S_, .i32⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S_, .i32⟩
  | .hbm, ⟨27, _⟩ => ⟨S1024, .i32⟩
  | .hbm, ⟨28, _⟩ => ⟨S1024, .i1⟩
  | .hbm, ⟨29, _⟩ => ⟨S1024, .i32⟩
  | .hbm, ⟨30, _⟩ => ⟨S1024, .i32⟩
  | .hbm, ⟨31, _⟩ => ⟨S_, .i32⟩
  | .hbm, ⟨32, _⟩ => ⟨S1024, .i32⟩
  | .hbm, ⟨33, _⟩ => ⟨S1024, .i1⟩
  | .hbm, ⟨34, _⟩ => ⟨S1024, .i1⟩
  | .hbm, ⟨35, _⟩ => ⟨S_, .i32⟩
  | .hbm, ⟨36, _⟩ => ⟨S1024, .i32⟩
  | .hbm, ⟨37, _⟩ => ⟨S1024, .i32⟩
  | .hbm, ⟨38, _⟩ => ⟨S1024, .i32⟩
  | .hbm, ⟨39, _⟩ => ⟨S1024x1, .i32⟩
  | .hbm, ⟨40, _⟩ => ⟨S16, .i32⟩
  | .hbm, ⟨41, _⟩ => ⟨S1x16, .i32⟩
  | .hbm, ⟨42, _⟩ => ⟨S1024x16, .i32⟩
  | .hbm, ⟨43, _⟩ => ⟨S1024x16, .i32⟩
  | .hbm, ⟨44, _⟩ => ⟨S1024x16, .i1⟩
  | .hbm, ⟨45, _⟩ => ⟨S1024x16, .f32⟩
  | .hbm, ⟨46, _⟩ => ⟨S_, .f32⟩
  | .hbm, ⟨47, _⟩ => ⟨S1024x16, .f32⟩
  | .hbm, ⟨48, _⟩ => ⟨S1024x16, .f32⟩
  | .hbm, ⟨49, _⟩ => ⟨S16x1024, .f32⟩
  | .hbm, ⟨50, _⟩ => ⟨S16x1024, .bf16⟩
  | .hbm, ⟨51, _⟩ => ⟨S64x1024x512, .f32⟩
  | .local _ .vmem, ⟨0, _⟩ => ⟨S1x1024x512, .bf16⟩
  | .local _ .vmem, ⟨1, _⟩ => ⟨S1x1024x512, .bf16⟩
  | .local _ .vmem, ⟨2, _⟩ => ⟨S512x1536, .bf16⟩
  | .local _ .vmem, ⟨3, _⟩ => ⟨S1x1536, .f32⟩
  | .local _ .vmem, ⟨4, _⟩ => ⟨S512x512, .bf16⟩
  | .local _ .vmem, ⟨5, _⟩ => ⟨S1x512, .f32⟩
  | .local _ .vmem, ⟨6, _⟩ => ⟨S16x1024, .bf16⟩
  | .local _ .vmem, ⟨7, _⟩ => ⟨S1x1024x512, .f32⟩
  | .local _ .vmem, ⟨8, _⟩ => ⟨S1x1024x512, .f32⟩
  | _, _ => ⟨S64x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  transposes_S512x512_S512x512_1_0 : S512x512.Transposes [1, 0] S512x512
  concatenates_S512x512_S512x512_S512x512_S512x1536_d1 : Shape.Concatenates [S512x512, S512x512, S512x512] S512x1536 1
  concatenates_S512_S512_S512_S1536_d0 : Shape.Concatenates [S512, S512, S512] S1536 0
  shapeCasts_S1536_S1x1536 : S1536.ShapeCasts S1x1536
  shapeCasts_S512_S1x512 : S512.ShapeCasts S1x512
  bcast_S_S1024 : S_.BroadcastsInDim S1024 (![] : Fin 0 → Fin S1024.rank)
  bcast_S1024_S1024x1_0 : S1024.BroadcastsInDim S1024x1 (![0] : Fin 1 → Fin S1024x1.rank)
  bcast_S16_S1x16_1 : S16.BroadcastsInDim S1x16 (![1] : Fin 1 → Fin S1x16.rank)
  bcast_S1024x1_S1024x16_0_1 : S1024x1.BroadcastsInDim S1024x16 (![0, 1] : Fin 2 → Fin S1024x16.rank)
  bcast_S1x16_S1024x16_0_1 : S1x16.BroadcastsInDim S1024x16 (![0, 1] : Fin 2 → Fin S1024x16.rank)
  bcast_S_S1024x16 : S_.BroadcastsInDim S1024x16 (![] : Fin 0 → Fin S1024x16.rank)
  transposes_S1024x16_S16x1024_1_0 : S1024x16.Transposes [1, 0] S16x1024
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  broadcasts_S1x1536_S1024x1536 : S1x1536.Broadcasts S1024x1536
  slices_S1024x1536_o0_0_S1024x512 : S1024x1536.Slices ![0, 0] S1024x512
  slices_S1024x1536_o0_512_S1024x512 : S1024x1536.Slices ![0, 512] S1024x512
  slices_S1024x1536_o0_1024_S1024x512 : S1024x1536.Slices ![0, 1024] S1024x512
  reduces_S1024x16_S1024 : S1024x16.Reduces [1] S1024
  shapeCasts_S1024_S1024x1 : S1024.ShapeCasts S1024x1
  broadcasts_S1024x1_S1024x16 : S1024x1.Broadcasts S1024x16
  reduces_S16x1024_S16 : S16x1024.Reduces [1] S16
  shapeCasts_S16_S16x1 : S16.ShapeCasts S16x1
  broadcasts_S16x1_S16x1024 : S16x1.Broadcasts S16x1024
  broadcasts_S1x512_S1024x512 : S1x512.Broadcasts S1024x512
  shapeCasts_S1024x512_S1x1024x512 : S1024x512.ShapeCasts S1x1024x512
  dot_S1024x512_S512x1536_S1024x1536_1_0_0_1_n_n_wf : DotDims.WF S1024x512 S512x1536 S1024x1536 [1] [0] [0] [1] [] []
  dot_S16x1024_S1024x512_S16x512_1_0_0_1_n_n_wf : DotDims.WF S16x1024 S1024x512 S16x512 [1] [0] [0] [1] [] []
  dot_S1024x512_S16x512_S1024x16_1_1_0_0_n_n_wf : DotDims.WF S1024x512 S16x512 S1024x16 [1] [1] [0] [0] [] []
  dot_S16x512_S1024x512_S16x1024_1_1_0_0_n_n_wf : DotDims.WF S16x512 S1024x512 S16x1024 [1] [1] [0] [0] [] []
  dot_S16x512_S512x512_S16x512_1_0_0_1_n_n_wf : DotDims.WF S16x512 S512x512 S16x512 [1] [0] [0] [1] [] []
  dot_S1024x16_S16x512_S1024x512_1_0_0_1_n_n_wf : DotDims.WF S1024x16 S16x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S64x1024x512.size a
  hwx0_0 : ∀ i : grid0.Coords, EltTy.bits .bf16 = 32 ∨ (Rect.block (s := S64x1024x512) S1x1024x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S512x1536.size a
  hwx0_1 : ∀ i : grid0.Coords, EltTy.bits .bf16 = 32 ∨ (Rect.block (s := S512x1536) S512x1536.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1536.size a ≤ S1x1536.size a
  hwx0_2 : ∀ i : grid0.Coords, EltTy.bits .f32 = 32 ∨ (Rect.block (s := S1x1536) S1x1536.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x1024.size a ≤ S16x1024.size a
  hwx0_5 : ∀ i : grid0.Coords, EltTy.bits .bf16 = 32 ∨ (Rect.block (s := S16x1024) S16x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x512.size a ≤ S64x1024x512.size a
  hwx0_6 : ∀ i : grid0.Coords, EltTy.bits .f32 = 32 ∨ (Rect.block (s := S64x1024x512) S1x1024x512.size (cc0_transform_6 i) (hinb0_6 i)).WholeWords (EltTy.packing .f32)

variable [Facts₀]

def dot_S1024x512_S512x1536_S1024x1536_1_0_0_1_n_n : DotDims S1024x512 S512x1536 S1024x1536 where
  lhsContracting := [1]
  rhsContracting := [0]
  lhsNonContracting := [0]
  rhsNonContracting := [1]
  lhsBatch := []
  rhsBatch := []
  wf := dot_S1024x512_S512x1536_S1024x1536_1_0_0_1_n_n_wf
def dot_S16x1024_S1024x512_S16x512_1_0_0_1_n_n : DotDims S16x1024 S1024x512 S16x512 where
  lhsContracting := [1]
  rhsContracting := [0]
  lhsNonContracting := [0]
  rhsNonContracting := [1]
  lhsBatch := []
  rhsBatch := []
  wf := dot_S16x1024_S1024x512_S16x512_1_0_0_1_n_n_wf
def dot_S1024x512_S16x512_S1024x16_1_1_0_0_n_n : DotDims S1024x512 S16x512 S1024x16 where
  lhsContracting := [1]
  rhsContracting := [1]
  lhsNonContracting := [0]
  rhsNonContracting := [0]
  lhsBatch := []
  rhsBatch := []
  wf := dot_S1024x512_S16x512_S1024x16_1_1_0_0_n_n_wf
def dot_S16x512_S1024x512_S16x1024_1_1_0_0_n_n : DotDims S16x512 S1024x512 S16x1024 where
  lhsContracting := [1]
  rhsContracting := [1]
  lhsNonContracting := [0]
  rhsNonContracting := [0]
  lhsBatch := []
  rhsBatch := []
  wf := dot_S16x512_S1024x512_S16x1024_1_1_0_0_n_n_wf
def dot_S16x512_S512x512_S16x512_1_0_0_1_n_n : DotDims S16x512 S512x512 S16x512 where
  lhsContracting := [1]
  rhsContracting := [0]
  lhsNonContracting := [0]
  rhsNonContracting := [1]
  lhsBatch := []
  rhsBatch := []
  wf := dot_S16x512_S512x512_S16x512_1_0_0_1_n_n_wf
def dot_S1024x16_S16x512_S1024x512_1_0_0_1_n_n : DotDims S1024x16 S16x512 S1024x512 where
  lhsContracting := [1]
  rhsContracting := [0]
  lhsNonContracting := [0]
  rhsNonContracting := [1]
  lhsBatch := []
  rhsBatch := []
  wf := dot_S1024x16_S16x512_S1024x512_1_0_0_1_n_n_wf

abbrev win0_0 : Pipeline.Window sig grid0 :=
  Pipeline.Window.ofSpec (Memref.whole main_v0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S16x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x1024x512 : Shape := ⟨3, ![64, 1024, 512]⟩
abbrev S512x512 : Shape := ⟨2, ![512, 512]⟩
abbrev S512 : Shape := ⟨1, ![512]⟩
abbrev S1x1x512 : Shape := ⟨3, ![1, 1, 512]⟩
abbrev S64x16x64x512 : Shape := ⟨4, ![64, 16, 64, 512]⟩
abbrev S_ : Shape := ⟨0, ![]⟩
abbrev S64x16x512 : Shape := ⟨3, ![64, 16, 512]⟩
abbrev S64x1024x16 : Shape := ⟨3, ![64, 1024, 16]⟩
abbrev S64x1024 : Shape := ⟨2, ![64, 1024]⟩
abbrev S64x1024x1 : Shape := ⟨3, ![64, 1024, 1]⟩
abbrev S64x16x1024 : Shape := ⟨3, ![64, 16, 1024]⟩
abbrev S64x16 : Shape := ⟨2, ![64, 16]⟩
abbrev S64x16x1 : Shape := ⟨3, ![64, 16, 1]⟩

abbrev nBuf : Space → Nat
  | .hbm => 69
  | .vmem => 0
  | .smem => 0
  | _ => 0

abbrev bufTy : (tb : Table) → Fin (tcTables nBuf tb) → BufTy
  | .hbm, ⟨0, _⟩ => ⟨S64x1024x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S64x1024x512, .f32⟩
  | .hbm, ⟨10, _⟩ => ⟨S1x1x512, .f32⟩
  | .hbm, ⟨11, _⟩ => ⟨S64x1024x512, .f32⟩
  | .hbm, ⟨12, _⟩ => ⟨S64x1024x512, .f32⟩
  | .hbm, ⟨13, _⟩ => ⟨S64x1024x512, .f32⟩
  | .hbm, ⟨14, _⟩ => ⟨S1x1x512, .f32⟩
  | .hbm, ⟨15, _⟩ => ⟨S64x1024x512, .f32⟩
  | .hbm, ⟨16, _⟩ => ⟨S64x1024x512, .f32⟩
  | .hbm, ⟨17, _⟩ => ⟨S64x1024x512, .f32⟩
  | .hbm, ⟨18, _⟩ => ⟨S1x1x512, .f32⟩
  | .hbm, ⟨19, _⟩ => ⟨S64x1024x512, .f32⟩
  | .hbm, ⟨20, _⟩ => ⟨S64x1024x512, .f32⟩
  | .hbm, ⟨21, _⟩ => ⟨S64x16x64x512, .f32⟩
  | .hbm, ⟨22, _⟩ => ⟨S_, .f32⟩
  | .hbm, ⟨23, _⟩ => ⟨S64x16x512, .f32⟩
  | .hbm, ⟨24, _⟩ => ⟨S_, .f32⟩
  | .hbm, ⟨25, _⟩ => ⟨S64x16x512, .f32⟩
  | .hbm, ⟨26, _⟩ => ⟨S64x16x512, .f32⟩
  | .hbm, ⟨27, _⟩ => ⟨S64x1024x16, .f32⟩
  | .hbm, ⟨28, _⟩ => ⟨S_, .f32⟩
  | .hbm, ⟨29, _⟩ => ⟨S64x1024x16, .f32⟩
  | .hbm, ⟨30, _⟩ => ⟨S64x1024x16, .f32⟩
  | .hbm, ⟨31, _⟩ => ⟨S_, .f32⟩
  | .hbm, ⟨32, _⟩ => ⟨S64x1024, .f32⟩
  | .hbm, ⟨33, _⟩ => ⟨S_, .f32⟩
  | .hbm, ⟨34, _⟩ => ⟨S64x1024, .f32⟩
  | .hbm, ⟨35, _⟩ => ⟨S64x1024, .f32⟩
  | .hbm, ⟨36, _⟩ => ⟨S64x1024x1, .f32⟩
  | .hbm, ⟨37, _⟩ => ⟨S64x1024x16, .f32⟩
  | .hbm, ⟨38, _⟩ => ⟨S64x1024x16, .f32⟩
  | .hbm, ⟨39, _⟩ => ⟨S64x1024x16, .f32⟩
  | .hbm, ⟨40, _⟩ => ⟨S_, .f32⟩
  | .hbm, ⟨41, _⟩ => ⟨S64x1024, .f32⟩
  | .hbm, ⟨42, _⟩ => ⟨S64x1024x1, .f32⟩
  | .hbm, ⟨43, _⟩ => ⟨S64x1024x16, .f32⟩
  | .hbm, ⟨44, _⟩ => ⟨S64x1024x16, .f32⟩
  | .hbm, ⟨45, _⟩ => ⟨S64x16x1024, .f32⟩
  | .hbm, ⟨46, _⟩ => ⟨S_, .f32⟩
  | .hbm, ⟨47, _⟩ => ⟨S64x16x1024, .f32⟩
  | .hbm, ⟨48, _⟩ => ⟨S64x16x1024, .f32⟩
  | .hbm, ⟨49, _⟩ => ⟨S_, .f32⟩
  | .hbm, ⟨50, _⟩ => ⟨S64x16, .f32⟩
  | .hbm, ⟨51, _⟩ => ⟨S_, .f32⟩
  | .hbm, ⟨52, _⟩ => ⟨S64x16, .f32⟩
  | .hbm, ⟨53, _⟩ => ⟨S64x16, .f32⟩
  | .hbm, ⟨54, _⟩ => ⟨S64x16x1, .f32⟩
  | .hbm, ⟨55, _⟩ => ⟨S64x16x1024, .f32⟩
  | .hbm, ⟨56, _⟩ => ⟨S64x16x1024, .f32⟩
  | .hbm, ⟨57, _⟩ => ⟨S64x16x1024, .f32⟩
  | .hbm, ⟨58, _⟩ => ⟨S_, .f32⟩
  | .hbm, ⟨59, _⟩ => ⟨S64x16, .f32⟩
  | .hbm, ⟨60, _⟩ => ⟨S64x16x1, .f32⟩
  | .hbm, ⟨61, _⟩ => ⟨S64x16x1024, .f32⟩
  | .hbm, ⟨62, _⟩ => ⟨S64x16x1024, .f32⟩
  | .hbm, ⟨63, _⟩ => ⟨S64x16x512, .f32⟩
  | .hbm, ⟨64, _⟩ => ⟨S64x1024x512, .f32⟩
  | .hbm, ⟨65, _⟩ => ⟨S64x1024x512, .f32⟩
  | .hbm, ⟨66, _⟩ => ⟨S1x1x512, .f32⟩
  | .hbm, ⟨67, _⟩ => ⟨S64x1024x512, .f32⟩
  | .hbm, ⟨68, _⟩ => ⟨S64x1024x512, .f32⟩
  | _, _ => ⟨S64x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S64x1024x512_0_1_2 : S1x1x512.BroadcastsInDim S64x1024x512 (![0, 1, 2] : Fin 3 → Fin S64x1024x512.rank)
  shapeCasts_S64x1024x512_S64x16x64x512 : S64x1024x512.ShapeCasts S64x16x64x512
  reducesTo_S64x16x64x512_S64x16x512_d2 : S64x16x64x512.ReducesTo [2] S64x16x512
  h_S_ : 0 < S_.numel
  bcast_S_S64x16x512 : S_.BroadcastsInDim S64x16x512 (![] : Fin 0 → Fin S64x16x512.rank)
  bcast_S_S64x1024x16 : S_.BroadcastsInDim S64x1024x16 (![] : Fin 0 → Fin S64x1024x16.rank)
  reducesTo_S64x1024x16_S64x1024_d2 : S64x1024x16.ReducesTo [2] S64x1024
  bcast_S_S64x1024 : S_.BroadcastsInDim S64x1024 (![] : Fin 0 → Fin S64x1024.rank)
  bcast_S64x1024_S64x1024x1_0_1 : S64x1024.BroadcastsInDim S64x1024x1 (![0, 1] : Fin 2 → Fin S64x1024x1.rank)
  bcast_S64x1024x1_S64x1024x16_0_1_2 : S64x1024x1.BroadcastsInDim S64x1024x16 (![0, 1, 2] : Fin 3 → Fin S64x1024x16.rank)
  bcast_S_S64x16x1024 : S_.BroadcastsInDim S64x16x1024 (![] : Fin 0 → Fin S64x16x1024.rank)
  reducesTo_S64x16x1024_S64x16_d2 : S64x16x1024.ReducesTo [2] S64x16
  bcast_S_S64x16 : S_.BroadcastsInDim S64x16 (![] : Fin 0 → Fin S64x16.rank)
  bcast_S64x16_S64x16x1_0_1 : S64x16.BroadcastsInDim S64x16x1 (![0, 1] : Fin 2 → Fin S64x16x1.rank)
  bcast_S64x16x1_S64x16x1024_0_1_2 : S64x16x1.BroadcastsInDim S64x16x1024 (![0, 1, 2] : Fin 3 → Fin S64x16x1024.rank)
  dot_S64x1024x512_S512x512_S64x1024x512_2_1_01_0_n_n_wf : DotDims.WF S64x1024x512 S512x512 S64x1024x512 [2] [1] [0, 1] [0] [] []
  dot_S64x1024x512_S64x16x512_S64x1024x16_2_2_1_1_0_0_wf : DotDims.WF S64x1024x512 S64x16x512 S64x1024x16 [2] [2] [1] [1] [0] [0]
  dot_S64x16x512_S64x1024x512_S64x16x1024_2_2_1_1_0_0_wf : DotDims.WF S64x16x512 S64x1024x512 S64x16x1024 [2] [2] [1] [1] [0] [0]
  dot_S64x16x1024_S64x1024x512_S64x16x512_2_1_1_2_0_0_wf : DotDims.WF S64x16x1024 S64x1024x512 S64x16x512 [2] [1] [1] [2] [0] [0]
  dot_S64x1024x16_S64x16x512_S64x1024x512_2_1_1_2_0_0_wf : DotDims.WF S64x1024x16 S64x16x512 S64x1024x512 [2] [1] [1] [2] [0] [0]

variable [Facts₀]

def dot_S64x1024x512_S512x512_S64x1024x512_2_1_01_0_n_n : DotDims S64x1024x512 S512x512 S64x1024x512 where
  lhsContracting := [2]
  rhsContracting := [1]
  lhsNonContracting := [0, 1]
  rhsNonContracting := [0]
  lhsBatch := []
  rhsBatch := []
  wf := dot_S64x1024x512_S512x512_S64x1024x512_2_1_01_0_n_n_wf
def dot_S64x1024x512_S64x16x512_S64x1024x16_2_2_1_1_0_0 : DotDims S64x1024x512 S64x16x512 S64x1024x16 where
  lhsContracting := [2]
  rhsContracting := [2]
  lhsNonContracting := [1]
  rhsNonContracting := [1]
  lhsBatch := [0]
  rhsBatch := [0]
  wf := dot_S64x1024x512_S64x16x512_S64x1024x16_2_2_1_1_0_0_wf
def dot_S64x16x512_S64x1024x512_S64x16x1024_2_2_1_1_0_0 : DotDims S64x16x512 S64x1024x512 S64x16x1024 where
  lhsContracting := [2]
  rhsContracting := [2]
  lhsNonContracting := [1]
  rhsNonContracting := [1]
  lhsBatch := [0]
  rhsBatch := [0]
  wf := dot_S64x16x512_S64x1024x512_S64x16x1024_2_2_1_1_0_0_wf
def dot_S64x16x1024_S64x1024x512_S64x16x512_2_1_1_2_0_0 : DotDims S64x16x1024 S64x1024x512 S64x16x512 where
  lhsContracting := [2]
  rhsContracting := [1]
  lhsNonContracting := [1]
  rhsNonContracting := [2]
  lhsBatch := [0]
  rhsBatch := [0]
  wf := dot_S64x16x1024_S64x1024x512_S64x16x512_2_1_1_2_0_0_wf
def dot_S64x1024x16_S64x16x512_S64x1024x512_2_1_1_2_0_0 : DotDims S64x1024x16 S64x16x512 S64x1024x512 where
  lhsContracting := [2]
  rhsContracting := [1]
  lhsNonContracting := [1]
  rhsNonContracting := [2]
  lhsBatch := [0]
  rhsBatch := [0]
  wf := dot_S64x1024x16_S64x16x512_S64x1024x512_2_1_1_2_0_0_wf

class Facts : Prop extends Facts₀ where

variable [Facts]
-- ==== Proof.KData.lean ====
/- The proof data of the attention kernel's one grid region: what each core's arrays hold when the region is
   entered, each window's block at a grid point, and what the body leaves in the output window's buffer as a
   function of the six input blocks. Definitions and their projections only; the run is in KFrame.lean. -/
import proofs.«102939_j77532749627633_2_alg».proof.Proof.Gen.Kernel.Launch
import proofs.«102939_j77532749627633_2_alg».proof.Proof.Gen.Kernel.Skeleton
import proofs.«102939_j77532749627633_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The arrays when the region is entered -/

/-- Core `c`'s TensorCore buffers when the region is entered: the launched memory after the three stretches of
    host operations (the casts and transposes of the weights, the floor-divide function @main calls, the pooling matrix). -/
abbrev V (c : Dev nD) (b : Ref sig .tc) : Buf (Elt F) ((c : Thread nD τ).loc b) :=
  StableHlo.after (List.flatten [hostOps0, hostOps0_1, hostOps0_2]) (fun b => m (c, b)) b

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: every one the whole of its buffer -/

/-- The activations' block (one batch row, 1024 tokens of width 512). -/
abbrev rX : Rect S1x1024x512 := Rect.unit (s := S1x1024x512) ![0, 0, 0] S1x1024x512.size inb_S1x1024x512_S1x1024x512_0_0_0
/-- The fused query/key/value weight. -/
abbrev rWqkv : Rect S512x1536 := Rect.unit (s := S512x1536) ![0, 0] S512x1536.size inb_S512x1536_S512x1536_0_0
/-- The fused query/key/value bias. -/
abbrev rBqkv : Rect S1x1536 := Rect.unit (s := S1x1536) ![0, 0] S1x1536.size inb_S1x1536_S1x1536_0_0
/-- The output projection's weight. -/
abbrev rWo : Rect S512x512 := Rect.unit (s := S512x512) ![0, 0] S512x512.size inb_S512x512_S512x512_0_0
/-- The output projection's bias. -/
abbrev rBo : Rect S1x512 := Rect.unit (s := S1x512) ![0, 0] S1x512.size inb_S1x512_S1x512_0_0
/-- The pooling matrix that averages tokens into the 16 agents. -/
abbrev rPool : Rect S16x1024 := Rect.unit (s := S16x1024) ![0, 0] S16x1024.size inb_S16x1024_S16x1024_0_0
/-- The output block, same extents as the activations' block. -/
abbrev rOut : Rect S1x1024x512 := Rect.unit (s := S1x1024x512) ![0, 0, 0] S1x1024x512.size inb_S1x1024x512_S1x1024x512_0_0_0

/-! ## What the body leaves in the output window's buffer -/

/-- The output window's buffer after the body, from the six input blocks: its one store, over the whole buffer,
    of the attention's result computed from the blocks as loaded. -/
def outBlock (x0 : Vec F S1x1024x512 .bf16) (x1 : Vec F S512x1536 .bf16) (x2 : Vec F S1x1536 .f32)
    (x3 : Vec F S512x512 .bf16) (x4 : Vec F S1x512 .f32) (x5 : Vec F S16x1024 .bf16) : Vec F S1x1024x512 .f32 :=
  View.canon [⟨rOut, k0_pay1 (k0_pay2 (View.ld x3 rWo)) (k0_pay3 (View.ld x4 rBo))
    (k0_pay6 (View.ld x0 rX) (View.ld x1 rWqkv) (View.ld x2 rBqkv))
    (k0_pay8 (View.ld x0 rX) (View.ld x1 rWqkv) (View.ld x2 rBqkv) (View.ld x5 rPool))
    (k0_pay9 (View.ld x0 rX) (View.ld x1 rWqkv) (View.ld x2 rBqkv) (View.ld x5 rPool))⟩]

/-! ## The pipeline's proof data -/

/-- The proof data of the one pipeline on core `c`: the arrays as the region finds them; after the body at point
    `t` each input's buffer at its block and the output's at `outBlock` of the six input blocks; the invariant
    the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents (the definition projected; `V` is never unfolded). -/
theorem A_eq (c : Dev nD) (w : Fin cfg0.W) : (dats m 0 c).A w = V m c (Pipeline.arrRef spec0 w) := by
  dsimp only [dats]

/-- What the body leaves, window by window. -/
theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_out (c : Dev nD) (t : Fin cfg0.N) :
    (dats m 0 c).after 6 t = outBlock (iblk m c 0 t) (iblk m c 1 t) (iblk m c 2 t) (iblk m c 3 t) (iblk m c 4 t) (iblk m c 5 t) := by
  dsimp only [dats]

end Cert.Kernel.Hand

end
-- ==== Proof.KFrame.lean ====
/- The frame of the attention kernel's program: @main is three stretches of host operations and one grid region
   of 64 points over seven windows (six inputs, one output). The region is run by the pipeline library's frame
   theorem from the proof data of KData.lean; this file supplies what that theorem asks for — @main up to the
   region, the arrays' contents there, each input's staging buffer at every point, the body's triple and the body
   obligation — and reads the nine argument arrays, which only host operations read, off the run's post. -/
import proofs.«102939_j77532749627633_2_alg».proof.Proof.KData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- No host operation allocates: each only reads and writes buffers @main declares. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main up to the region: the three stretches of host operations, then the region's call. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-! ## The nine arguments are read only: every host operation writes a value of its own -/

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## An input's current staging buffer holds its block at every point

Fetched there or not: the first window's block moves with the grid point and is fetched at each; the other five
have a constant index, are fetched once, and the body leaves them in place. -/

theorem before_in0 (c : Dev nD) (t : Fin cfg0.N) (d) : (dats m 0 c).before 0 t d = iblk m c 0 t :=
  ((dats m 0 c).before_in_eq_fetched 0 rfl (fun _ => rfl) (fun _ _ _ => rfl)
    (fun t => by rw [after_in0]; unfold Dat.blockOf iblk; rw [A_eq]; try rfl) t d).trans
    (by unfold Dat.fetched Dat.blockOf iblk; rw [A_eq]; try rfl)
theorem before_in1 (c : Dev nD) (t : Fin cfg0.N) (d) : (dats m 0 c).before 1 t d = iblk m c 1 t :=
  ((dats m 0 c).before_in_eq_fetched 1 rfl (fun _ => rfl) (fun _ _ _ => rfl)
    (fun t => by rw [after_in1]; unfold Dat.blockOf iblk; rw [A_eq]; try rfl) t d).trans
    (by unfold Dat.fetched Dat.blockOf iblk; rw [A_eq]; try rfl)
theorem before_in2 (c : Dev nD) (t : Fin cfg0.N) (d) : (dats m 0 c).before 2 t d = iblk m c 2 t :=
  ((dats m 0 c).before_in_eq_fetched 2 rfl (fun _ => rfl) (fun _ _ _ => rfl)
    (fun t => by rw [after_in2]; unfold Dat.blockOf iblk; rw [A_eq]; try rfl) t d).trans
    (by unfold Dat.fetched Dat.blockOf iblk; rw [A_eq]; try rfl)
theorem before_in3 (c : Dev nD) (t : Fin cfg0.N) (d) : (dats m 0 c).before 3 t d = iblk m c 3 t :=
  ((dats m 0 c).before_in_eq_fetched 3 rfl (fun _ => rfl) (fun _ _ _ => rfl)
    (fun t => by rw [after_in3]; unfold Dat.blockOf iblk; rw [A_eq]; try rfl) t d).trans
    (by unfold Dat.fetched Dat.blockOf iblk; rw [A_eq]; try rfl)
theorem before_in4 (c : Dev nD) (t : Fin cfg0.N) (d) : (dats m 0 c).before 4 t d = iblk m c 4 t :=
  ((dats m 0 c).before_in_eq_fetched 4 rfl (fun _ => rfl) (fun _ _ _ => rfl)
    (fun t => by rw [after_in4]; unfold Dat.blockOf iblk; rw [A_eq]; try rfl) t d).trans
    (by unfold Dat.fetched Dat.blockOf iblk; rw [A_eq]; try rfl)
theorem before_in5 (c : Dev nD) (t : Fin cfg0.N) (d) : (dats m 0 c).before 5 t d = iblk m c 5 t :=
  ((dats m 0 c).before_in_eq_fetched 5 rfl (fun _ => rfl) (fun _ _ _ => rfl)
    (fun t => by rw [after_in5]; unfold Dat.blockOf iblk; rw [A_eq]; try rfl) t d).trans
    (by unfold Dat.fetched Dat.blockOf iblk; rw [A_eq]; try rfl)

/-! ## The body's triple -/

/-- The one store of the body is over the whole output buffer, so it covers it. -/
theorem cover_out (p : Vec F S1x1024x512 .f32) (y : S1x1024x512.Idx) :
    ∃ pc ∈ ([⟨rOut, p⟩] : List (View.Piece (Elt F) S1x1024x512 .f32)), y ∈ pc.1.set :=
  View.cover_of_tiled [⟨rOut, p⟩] S1x1024x512.size (by rfl) y

set_option maxHeartbeats 1000000 in
/-- The attention body on whole staging memrefs, the six inputs' at read contents `x0 … x5` and the output's at
    anything, runs to the continuation holding the inputs' as they were and the output's at `outBlock` of them:
    six whole loads, a load of the output buffer whose value nothing reads, and one store over the whole of it. -/
theorem attn_body (c : Dev nD) (E : Set ℕ) (i : grid0.Coords)
    (aX : Memref sig .tc .vmem S1x1024x512 .bf16) (hX : aX.IsWhole)
    (aWqkv : Memref sig .tc .vmem S512x1536 .bf16) (hWqkv : aWqkv.IsWhole)
    (aBqkv : Memref sig .tc .vmem S1x1536 .f32) (hBqkv : aBqkv.IsWhole)
    (aWo : Memref sig .tc .vmem S512x512 .bf16) (hWo : aWo.IsWhole)
    (aBo : Memref sig .tc .vmem S1x512 .f32) (hBo : aBo.IsWhole)
    (aPool : Memref sig .tc .vmem S16x1024 .bf16) (hPool : aPool.IsWhole)
    (aOut : Memref sig .tc .vmem S1x1024x512 .f32) (hOut : aOut.IsWhole)
    (x0 : Vec F S1x1024x512 .bf16) (x1 : Vec F S512x1536 .bf16) (x2 : Vec F S1x1536 .f32)
    (x3 : Vec F S512x512 .bf16) (x4 : Vec F S1x512 .f32) (x5 : Vec F S16x1024 .bf16) (K : PUnit → sProp 𝕄) :
    iprop(owns (c : Thread nD τ) aX fullShare x0 ∗ owns (c : Thread nD τ) aWqkv fullShare x1
        ∗ owns (c : Thread nD τ) aBqkv fullShare x2 ∗ owns (c : Thread nD τ) aWo fullShare x3
        ∗ owns (c : Thread nD τ) aBo fullShare x4 ∗ owns (c : Thread nD τ) aPool fullShare x5
        ∗ (∃ d, owns (c : Thread nD τ) aOut fullShare d)
        ∗ (iprop(owns (c : Thread nD τ) aX fullShare x0 ∗ owns (c : Thread nD τ) aWqkv fullShare x1
            ∗ owns (c : Thread nD τ) aBqkv fullShare x2 ∗ owns (c : Thread nD τ) aWo fullShare x3
            ∗ owns (c : Thread nD τ) aBo fullShare x4 ∗ owns (c : Thread nD τ) aPool fullShare x5
            ∗ owns (c : Thread nD τ) aOut fullShare (outBlock x0 x1 x2 x3 x4 x5)) -∗ K ⟨⟩))
      ⊢ wp frame (wpE (defs₀ (F := F)) Variants.none c none) E
          (cc0__agent_attn_kernel i aX hX aWqkv hWqkv aBqkv hBqkv aWo hWo aBo hBo aPool hPool aOut hOut) K := by
  simp only [cc0__agent_attn_kernel_eq_skeleton]; unfold cc0__agent_attn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _)

/-! ## The body obligation, at a generic point -/

/-- What the body is called with at point `t`: the invariant, the core's debt, and each window's current staging
    buffer at what the pipeline left there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns: the same, each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the six inputs' memrefs hold their blocks, so the body's triple applies; the invariant
    and the core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_out]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (attn_body c Set.univ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of
    @main on the TensorCores terminates, and every final state has every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.Kernel.Hand.run_main' depends on axioms: [propext, Classical.choice, Quot.sound] -/
#guard_msgs in #print axioms run_main

/-- The nine argument arrays in the frame run's post: none of them is a window's array (the windows stage values
    the host operations computed from them), so each is among the buffers no window stages, which the post holds at
    their contents at the region's entry — and those are the launched ones (`V_main_argK`). Stated on the post
    itself, so that a reader of the output array's contents there has the arguments' beside it. -/
theorem kept_args (r : PUnit × MemSt nD τ sig (Elt F)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c)⟩

/-- THE FRAME: the program runs to completion and its nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => kept_args m r h c) (run_main m ρ)

end Cert.Kernel.Hand

end
-- ==== Proof.KIData.lean ====
/- The proof data of the attention kernel's one grid region: what each core's arrays hold when the region is
   entered, each window's block at a grid point, and what the body leaves in the output window's buffer as a
   function of the six input blocks. Definitions and their projections only; the run is in KIFrame.lean. -/
import proofs.«102939_j77532749627633_2_alg».proof.Proof.Gen.KernelIdeal.Launch
import proofs.«102939_j77532749627633_2_alg».proof.Proof.Gen.KernelIdeal.Skeleton
import proofs.«102939_j77532749627633_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The arrays when the region is entered -/

/-- Core `c`'s TensorCore buffers when the region is entered: the launched memory after the three stretches of
    host operations (the casts and transposes of the weights, the floor-divide function @main calls, the pooling matrix). -/
abbrev V (c : Dev nD) (b : Ref sig .tc) : Buf (Elt F) ((c : Thread nD τ).loc b) :=
  StableHlo.after (List.flatten [hostOps0, hostOps0_1, hostOps0_2]) (fun b => m (c, b)) b

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: every one the whole of its buffer -/

/-- The activations' block (one batch row, 1024 tokens of width 512). -/
abbrev rX : Rect S1x1024x512 := Rect.unit (s := S1x1024x512) ![0, 0, 0] S1x1024x512.size inb_S1x1024x512_S1x1024x512_0_0_0
/-- The fused query/key/value weight. -/
abbrev rWqkv : Rect S512x1536 := Rect.unit (s := S512x1536) ![0, 0] S512x1536.size inb_S512x1536_S512x1536_0_0
/-- The fused query/key/value bias. -/
abbrev rBqkv : Rect S1x1536 := Rect.unit (s := S1x1536) ![0, 0] S1x1536.size inb_S1x1536_S1x1536_0_0
/-- The output projection's weight. -/
abbrev rWo : Rect S512x512 := Rect.unit (s := S512x512) ![0, 0] S512x512.size inb_S512x512_S512x512_0_0
/-- The output projection's bias. -/
abbrev rBo : Rect S1x512 := Rect.unit (s := S1x512) ![0, 0] S1x512.size inb_S1x512_S1x512_0_0
/-- The pooling matrix that averages tokens into the 16 agents. -/
abbrev rPool : Rect S16x1024 := Rect.unit (s := S16x1024) ![0, 0] S16x1024.size inb_S16x1024_S16x1024_0_0
/-- The output block, same extents as the activations' block. -/
abbrev rOut : Rect S1x1024x512 := Rect.unit (s := S1x1024x512) ![0, 0, 0] S1x1024x512.size inb_S1x1024x512_S1x1024x512_0_0_0

/-! ## What the body leaves in the output window's buffer -/

/-- The output window's buffer after the body, from the six input blocks: its one store, over the whole buffer,
    of the attention's result computed from the blocks as loaded. -/
def outBlock (x0 : Vec F S1x1024x512 .bf16) (x1 : Vec F S512x1536 .bf16) (x2 : Vec F S1x1536 .f32)
    (x3 : Vec F S512x512 .bf16) (x4 : Vec F S1x512 .f32) (x5 : Vec F S16x1024 .bf16) : Vec F S1x1024x512 .f32 :=
  View.canon [⟨rOut, k0_pay1 (k0_pay2 (View.ld x3 rWo)) (k0_pay3 (View.ld x4 rBo))
    (k0_pay6 (View.ld x0 rX) (View.ld x1 rWqkv) (View.ld x2 rBqkv))
    (k0_pay8 (View.ld x0 rX) (View.ld x1 rWqkv) (View.ld x2 rBqkv) (View.ld x5 rPool))
    (k0_pay9 (View.ld x0 rX) (View.ld x1 rWqkv) (View.ld x2 rBqkv) (View.ld x5 rPool))⟩]

/-! ## The pipeline's proof data -/

/-- The proof data of the one pipeline on core `c`: the arrays as the region finds them; after the body at point
    `t` each input's buffer at its block and the output's at `outBlock` of the six input blocks; the invariant
    the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents (the definition projected; `V` is never unfolded). -/
theorem A_eq (c : Dev nD) (w : Fin cfg0.W) : (dats m 0 c).A w = V m c (Pipeline.arrRef spec0 w) := by
  dsimp only [dats]

/-- What the body leaves, window by window. -/
theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_out (c : Dev nD) (t : Fin cfg0.N) :
    (dats m 0 c).after 6 t = outBlock (iblk m c 0 t) (iblk m c 1 t) (iblk m c 2 t) (iblk m c 3 t) (iblk m c 4 t) (iblk m c 5 t) := by
  dsimp only [dats]

end Cert.KernelIdeal.Hand

end
-- ==== Proof.KIFrame.lean ====
/- The frame of the attention kernel's program: @main is three stretches of host operations and one grid region
   of 64 points over seven windows (six inputs, one output). The region is run by the pipeline library's frame
   theorem from the proof data of KIData.lean; this file supplies what that theorem asks for — @main up to the
   region, the arrays' contents there, each input's staging buffer at every point, the body's triple and the body
   obligation — and reads the nine argument arrays, which only host operations read, off the run's post. -/
import proofs.«102939_j77532749627633_2_alg».proof.Proof.KIData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- No host operation allocates: each only reads and writes buffers @main declares. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main up to the region: the three stretches of host operations, then the region's call. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-! ## The nine arguments are read only: every host operation writes a value of its own -/

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## An input's current staging buffer holds its block at every point

Fetched there or not: the first window's block moves with the grid point and is fetched at each; the other five
have a constant index, are fetched once, and the body leaves them in place. -/

theorem before_in0 (c : Dev nD) (t : Fin cfg0.N) (d) : (dats m 0 c).before 0 t d = iblk m c 0 t :=
  ((dats m 0 c).before_in_eq_fetched 0 rfl (fun _ => rfl) (fun _ _ _ => rfl)
    (fun t => by rw [after_in0]; unfold Dat.blockOf iblk; rw [A_eq]; try rfl) t d).trans
    (by unfold Dat.fetched Dat.blockOf iblk; rw [A_eq]; try rfl)
theorem before_in1 (c : Dev nD) (t : Fin cfg0.N) (d) : (dats m 0 c).before 1 t d = iblk m c 1 t :=
  ((dats m 0 c).before_in_eq_fetched 1 rfl (fun _ => rfl) (fun _ _ _ => rfl)
    (fun t => by rw [after_in1]; unfold Dat.blockOf iblk; rw [A_eq]; try rfl) t d).trans
    (by unfold Dat.fetched Dat.blockOf iblk; rw [A_eq]; try rfl)
theorem before_in2 (c : Dev nD) (t : Fin cfg0.N) (d) : (dats m 0 c).before 2 t d = iblk m c 2 t :=
  ((dats m 0 c).before_in_eq_fetched 2 rfl (fun _ => rfl) (fun _ _ _ => rfl)
    (fun t => by rw [after_in2]; unfold Dat.blockOf iblk; rw [A_eq]; try rfl) t d).trans
    (by unfold Dat.fetched Dat.blockOf iblk; rw [A_eq]; try rfl)
theorem before_in3 (c : Dev nD) (t : Fin cfg0.N) (d) : (dats m 0 c).before 3 t d = iblk m c 3 t :=
  ((dats m 0 c).before_in_eq_fetched 3 rfl (fun _ => rfl) (fun _ _ _ => rfl)
    (fun t => by rw [after_in3]; unfold Dat.blockOf iblk; rw [A_eq]; try rfl) t d).trans
    (by unfold Dat.fetched Dat.blockOf iblk; rw [A_eq]; try rfl)
theorem before_in4 (c : Dev nD) (t : Fin cfg0.N) (d) : (dats m 0 c).before 4 t d = iblk m c 4 t :=
  ((dats m 0 c).before_in_eq_fetched 4 rfl (fun _ => rfl) (fun _ _ _ => rfl)
    (fun t => by rw [after_in4]; unfold Dat.blockOf iblk; rw [A_eq]; try rfl) t d).trans
    (by unfold Dat.fetched Dat.blockOf iblk; rw [A_eq]; try rfl)
theorem before_in5 (c : Dev nD) (t : Fin cfg0.N) (d) : (dats m 0 c).before 5 t d = iblk m c 5 t :=
  ((dats m 0 c).before_in_eq_fetched 5 rfl (fun _ => rfl) (fun _ _ _ => rfl)
    (fun t => by rw [after_in5]; unfold Dat.blockOf iblk; rw [A_eq]; try rfl) t d).trans
    (by unfold Dat.fetched Dat.blockOf iblk; rw [A_eq]; try rfl)

/-! ## The body's triple -/

/-- The one store of the body is over the whole output buffer, so it covers it. -/
theorem cover_out (p : Vec F S1x1024x512 .f32) (y : S1x1024x512.Idx) :
    ∃ pc ∈ ([⟨rOut, p⟩] : List (View.Piece (Elt F) S1x1024x512 .f32)), y ∈ pc.1.set :=
  View.cover_of_tiled [⟨rOut, p⟩] S1x1024x512.size (by rfl) y

set_option maxHeartbeats 1000000 in
/-- The attention body on whole staging memrefs, the six inputs' at read contents `x0 … x5` and the output's at
    anything, runs to the continuation holding the inputs' as they were and the output's at `outBlock` of them:
    six whole loads, a load of the output buffer whose value nothing reads, and one store over the whole of it. -/
theorem attn_body (c : Dev nD) (E : Set ℕ) (i : grid0.Coords)
    (aX : Memref sig .tc .vmem S1x1024x512 .bf16) (hX : aX.IsWhole)
    (aWqkv : Memref sig .tc .vmem S512x1536 .bf16) (hWqkv : aWqkv.IsWhole)
    (aBqkv : Memref sig .tc .vmem S1x1536 .f32) (hBqkv : aBqkv.IsWhole)
    (aWo : Memref sig .tc .vmem S512x512 .bf16) (hWo : aWo.IsWhole)
    (aBo : Memref sig .tc .vmem S1x512 .f32) (hBo : aBo.IsWhole)
    (aPool : Memref sig .tc .vmem S16x1024 .bf16) (hPool : aPool.IsWhole)
    (aOut : Memref sig .tc .vmem S1x1024x512 .f32) (hOut : aOut.IsWhole)
    (x0 : Vec F S1x1024x512 .bf16) (x1 : Vec F S512x1536 .bf16) (x2 : Vec F S1x1536 .f32)
    (x3 : Vec F S512x512 .bf16) (x4 : Vec F S1x512 .f32) (x5 : Vec F S16x1024 .bf16) (K : PUnit → sProp 𝕄) :
    iprop(owns (c : Thread nD τ) aX fullShare x0 ∗ owns (c : Thread nD τ) aWqkv fullShare x1
        ∗ owns (c : Thread nD τ) aBqkv fullShare x2 ∗ owns (c : Thread nD τ) aWo fullShare x3
        ∗ owns (c : Thread nD τ) aBo fullShare x4 ∗ owns (c : Thread nD τ) aPool fullShare x5
        ∗ (∃ d, owns (c : Thread nD τ) aOut fullShare d)
        ∗ (iprop(owns (c : Thread nD τ) aX fullShare x0 ∗ owns (c : Thread nD τ) aWqkv fullShare x1
            ∗ owns (c : Thread nD τ) aBqkv fullShare x2 ∗ owns (c : Thread nD τ) aWo fullShare x3
            ∗ owns (c : Thread nD τ) aBo fullShare x4 ∗ owns (c : Thread nD τ) aPool fullShare x5
            ∗ owns (c : Thread nD τ) aOut fullShare (outBlock x0 x1 x2 x3 x4 x5)) -∗ K ⟨⟩))
      ⊢ wp frame (wpE (defs₀ (F := F)) Variants.none c none) E
          (cc0__agent_attn_kernel i aX hX aWqkv hWqkv aBqkv hBqkv aWo hWo aBo hBo aPool hPool aOut hOut) K := by
  simp only [cc0__agent_attn_kernel_eq_skeleton]; unfold cc0__agent_attn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _)

/-! ## The body obligation, at a generic point -/

/-- What the body is called with at point `t`: the invariant, the core's debt, and each window's current staging
    buffer at what the pipeline left there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns: the same, each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the six inputs' memrefs hold their blocks, so the body's triple applies; the invariant
    and the core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_out]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (attn_body c Set.univ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of
    @main on the TensorCores terminates, and every final state has every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.KernelIdeal.Hand.run_main' depends on axioms: [propext, Classical.choice, Quot.sound] -/
#guard_msgs in #print axioms run_main

/-- The nine argument arrays in the frame run's post: none of them is a window's array (the windows stage values
    the host operations computed from them), so each is among the buffers no window stages, which the post holds at
    their contents at the region's entry — and those are the launched ones (`V_main_argK`). Stated on the post
    itself, so that a reader of the output array's contents there has the arguments' beside it. -/
theorem kept_args (r : PUnit × MemSt nD τ sig (Elt F)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c)⟩

/-- THE FRAME: the program runs to completion and its nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => kept_args m r h c) (run_main m ρ)

end Cert.KernelIdeal.Hand

end
-- ==== Proof.KValue.lean ====
/- The output array of the attention kernel after its run, as ONE function of the arrays the region finds.

   The grid has one point per batch row. Point `t` stages row `t` of the activations and the whole of the five
   other operands, and writes back row `t` of the result: the body's arithmetic of those blocks. So entry
   `(b, n, d)` of the final array is the body's arithmetic of activation row `b` and the five whole operands, read
   at `(0, n, d)`; the 64 rows cover the array. -/
import proofs.«102939_j77532749627633_2_alg».proof.Proof.KIData
import proofs.«102939_j77532749627633_2_alg».proof.Proof.KIFrame
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-- Row `b` of the activations as a block `[1, 1024, 512]`. -/
def rowBlock (A0 : S64x1024x512.Idx → Elt F .bf16) (b : Fin 64) : Vec F S1x1024x512 .bf16 :=
  fun y => A0 (ix3 b (y 1) (y 2))

/-- The result array as one function of the six staged arrays: entry `(b, n, d)` is the body's arithmetic of
    activation row `b` and the five whole operands, at `(0, n, d)`. -/
def wholeOut (A0 : S64x1024x512.Idx → Elt F .bf16) (A1 : Vec F S512x1536 .bf16) (A2 : Vec F S1x1536 .f32)
    (A3 : Vec F S512x512 .bf16) (A4 : Vec F S1x512 .f32) (A5 : Vec F S16x1024 .bf16) : S64x1024x512.Idx → Elt F .f32 :=
  fun i => k0_pay1 (k0_pay2 A3) (k0_pay3 A4) (k0_pay6 (rowBlock A0 (i 0)) A1 A2) (k0_pay8 (rowBlock A0 (i 0)) A1 A2 A5)
    (k0_pay9 (rowBlock A0 (i 0)) A1 A2 A5) (ix3 (0 : Fin 1) (i 1) (i 2))

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the activations' and the result's block index is the point on the batch
    axis and zero elsewhere; every other operand's block index is zero. -/
theorem idx_facts : ∀ t : Fin cfg0.N,
    win0_0.index t (0 : Fin 3) = t.val ∧ win0_0.index t (1 : Fin 3) = 0 ∧ win0_0.index t (2 : Fin 3) = 0
    ∧ win0_6.index t (0 : Fin 3) = t.val ∧ win0_6.index t (1 : Fin 3) = 0 ∧ win0_6.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The batch row of grid point `t`. -/
def rowOf (t : Fin cfg0.N) : Fin 64 := ⟨t.val, lt_of_lt_of_eq t.isLt N_0⟩

/-- Point `t`'s block of the activations is row `t` of their array. -/
theorem iblk0_eq (c : Dev nD) (t : Fin cfg0.N) :
    (iblk m c 0 t : S1x1024x512.Idx → Elt F .bf16) = rowBlock (V m c main_v0) (rowOf t) := by
  funext y
  show V m c main_v0 (((cfg0.win 0).blk t).view.emb y) = V m c main_v0 (ix3 (rowOf t) (y 1) (y 2))
  refine congrArg (V m c main_v0) (funext fun a => Fin.ext ?_)
  obtain ⟨e0, e1, e2, -⟩ := idx_facts t
  match a with
  | ⟨0, _⟩ => show win0_0.index t (0 : Fin 3) * 1 + 1 * (y 0).val = t.val; have hy : (y 0).val < 1 := (y 0).isLt; omega
  | ⟨1, _⟩ => show win0_0.index t (1 : Fin 3) * 1024 + 1 * (y 1).val = (y 1).val; omega
  | ⟨2, _⟩ => show win0_0.index t (2 : Fin 3) * 512 + 1 * (y 2).val = (y 2).val; omega

/-- Every point's block of the fused weights is their whole array; likewise the four other whole operands. -/
theorem iblk1_eq (c : Dev nD) (t : Fin cfg0.N) : (iblk m c 1 t : S512x1536.Idx → Elt F .bf16) = V m c main_v5 := by
  funext y
  show V m c main_v5 (((cfg0.win 1).blk t).view.emb y) = V m c main_v5 y
  refine congrArg (V m c main_v5) (funext fun a => Fin.ext ?_)
  obtain ⟨-, -, -, -, -, -, e0, e1, -⟩ := idx_facts t
  match a with
  | ⟨0, _⟩ => show win0_1.index t (0 : Fin 2) * 512 + 1 * (y 0).val = (y 0).val; omega
  | ⟨1, _⟩ => show win0_1.index t (1 : Fin 2) * 1536 + 1 * (y 1).val = (y 1).val; omega

theorem iblk2_eq (c : Dev nD) (t : Fin cfg0.N) : (iblk m c 2 t : S1x1536.Idx → Elt F .f32) = V m c main_v7 := by
  funext y
  show V m c main_v7 (((cfg0.win 2).blk t).view.emb y) = V m c main_v7 y
  refine congrArg (V m c main_v7) (funext fun a => Fin.ext ?_)
  obtain ⟨-, -, -, -, -, -, -, -, e0, e1, -⟩ := idx_facts t
  match a with
  | ⟨0, _⟩ => show win0_2.index t (0 : Fin 2) * 1 + 1 * (y 0).val = (y 0).val; omega
  | ⟨1, _⟩ => show win0_2.index t (1 : Fin 2) * 1536 + 1 * (y 1).val = (y 1).val; omega

theorem iblk3_eq (c : Dev nD) (t : Fin cfg0.N) : (iblk m c 3 t : S512x512.Idx → Elt F .bf16) = V m c main_v9 := by
  funext y
  show V m c main_v9 (((cfg0.win 3).blk t).view.emb y) = V m c main_v9 y
  refine congrArg (V m c main_v9) (funext fun a => Fin.ext ?_)
  obtain ⟨-, -, -, -, -, -, -, -, -, -, e0, e1, -⟩ := idx_facts t
  match a with
  | ⟨0, _⟩ => show win0_3.index t (0 : Fin 2) * 512 + 1 * (y 0).val = (y 0).val; omega
  | ⟨1, _⟩ => show win0_3.index t (1 : Fin 2) * 512 + 1 * (y 1).val = (y 1).val; omega

theorem iblk4_eq (c : Dev nD) (t : Fin cfg0.N) : (iblk m c 4 t : S1x512.Idx → Elt F .f32) = V m c main_v10 := by
  funext y
  show V m c main_v10 (((cfg0.win 4).blk t).view.emb y) = V m c main_v10 y
  refine congrArg (V m c main_v10) (funext fun a => Fin.ext ?_)
  obtain ⟨-, -, -, -, -, -, -, -, -, -, -, -, e0, e1, -⟩ := idx_facts t
  match a with
  | ⟨0, _⟩ => show win0_4.index t (0 : Fin 2) * 1 + 1 * (y 0).val = (y 0).val; omega
  | ⟨1, _⟩ => show win0_4.index t (1 : Fin 2) * 512 + 1 * (y 1).val = (y 1).val; omega

theorem iblk5_eq (c : Dev nD) (t : Fin cfg0.N) : (iblk m c 5 t : S16x1024.Idx → Elt F .bf16) = V m c main_v23 := by
  funext y
  show V m c main_v23 (((cfg0.win 5).blk t).view.emb y) = V m c main_v23 y
  refine congrArg (V m c main_v23) (funext fun a => Fin.ext ?_)
  obtain ⟨-, -, -, -, -, -, -, -, -, -, -, -, -, -, e0, e1⟩ := idx_facts t
  match a with
  | ⟨0, _⟩ => show win0_5.index t (0 : Fin 2) * 16 + 1 * (y 0).val = (y 0).val; omega
  | ⟨1, _⟩ => show win0_5.index t (1 : Fin 2) * 1024 + 1 * (y 1).val = (y 1).val; omega

/-- An entry of `wholeOut` in batch row `b`, at the in-row coordinates of a block index `j`, is the body's
    arithmetic of row `b` at `j`. -/
theorem wholeOut_row (A0 : S64x1024x512.Idx → Elt F .bf16) (A1 : Vec F S512x1536 .bf16) (A2 : Vec F S1x1536 .f32)
    (A3 : Vec F S512x512 .bf16) (A4 : Vec F S1x512 .f32) (A5 : Vec F S16x1024 .bf16) (b : Fin 64)
    (i : S64x1024x512.Idx) (j : S1x1024x512.Idx) (h0 : i 0 = b) (h1 : (i 1).val = (j 1).val) (h2 : (i 2).val = (j 2).val) :
    wholeOut A0 A1 A2 A3 A4 A5 i
      = k0_pay1 (k0_pay2 A3) (k0_pay3 A4) (k0_pay6 (rowBlock A0 b) A1 A2) (k0_pay8 (rowBlock A0 b) A1 A2 A5)
          (k0_pay9 (rowBlock A0 b) A1 A2 A5) j := by
  unfold wholeOut
  rw [h0]
  refine congrArg _ (funext fun a => Fin.ext ?_)
  match a with
  | ⟨0, _⟩ => show (0 : ℕ) = (j 0).val; have hj : (j 0).val < 1 := (j 0).isLt; omega
  | ⟨1, _⟩ => exact h1
  | ⟨2, _⟩ => exact h2

/-- WHAT POINT `t` WRITES BACK is row `t` of `wholeOut` of the arrays as the region finds them. -/
theorem flushed_eq (c : Dev nD) (t : Fin cfg0.N) :
    (dats m 0 c).flushed 6 t = ((cfg0.win 6).blk t).view.read (Elt F)
      (wholeOut (V m c main_v0) (V m c main_v5) (V m c main_v7) (V m c main_v9) (V m c main_v10) (V m c main_v23)) := by
  show (cfg0.win 6).cut (grid0.coords t) ((dats m 0 c).after 6 t) = _
  rw [after_out]
  unfold outBlock
  rw [View.canon_unit_zero hz3]
  simp only [View.ld_unit_zero (S := S1x1024x512) hz3, View.ld_unit_zero (S := S512x1536) hz2,
    View.ld_unit_zero (S := S1x1536) hz2, View.ld_unit_zero (S := S512x512) hz2, View.ld_unit_zero (S := S1x512) hz2,
    View.ld_unit_zero (S := S16x1024) hz2]
  rw [iblk0_eq, iblk1_eq, iblk2_eq, iblk3_eq, iblk4_eq, iblk5_eq]
  obtain ⟨-, -, -, e0, e1, e2, -⟩ := idx_facts t
  funext j
  refine (wholeOut_row _ _ _ _ _ _ (rowOf t) (((cfg0.win 6).blk t).view.emb j) j (Fin.ext ?_) ?_ ?_).symm
  · show win0_6.index t (0 : Fin 3) * 1 + 1 * (j 0).val = t.val; have hj : (j 0).val < 1 := (j 0).isLt; omega
  · show win0_6.index t (1 : Fin 3) * 1024 + 1 * (j 1).val = (j 1).val; omega
  · show win0_6.index t (2 : Fin 3) * 512 + 1 * (j 2).val = (j 2).val; omega

/-- An index of the result array is in point `t`'s block iff each coordinate is in the block's range on its axis. -/
theorem mem_blk (t : Fin cfg0.N) (i : S64x1024x512.Idx) :
    i ∈ ((cfg0.win 6).blk t).view.set ↔ ∀ a : Fin 3, win0_6.index t a * S1x1024x512.size a ≤ (i a).val ∧ (i a).val < win0_6.index t a * S1x1024x512.size a + S1x1024x512.size a := by
  show i ∈ ((View.whole main_v24).slice (win0_6.rect t)).set ↔ _
  rw [View.set_slice_whole, Rect.mem_set_unit]
  exact Iff.rfl

/-- The 64 rows cover the result array: index `i` lies in the block of the point of its batch coordinate. -/
theorem cover (i : S64x1024x512.Idx) : ∃ t : Fin cfg0.N, (cfg0.win 6).flush t = true ∧ i ∈ ((cfg0.win 6).blk t).view.set := by
  refine ⟨⟨(i 0).val, lt_of_lt_of_eq (i 0).isLt N_0.symm⟩, flush0_6 _, ?_⟩
  rw [mem_blk]
  obtain ⟨-, -, -, e0, e1, e2, -⟩ := idx_facts ⟨(i 0).val, lt_of_lt_of_eq (i 0).isLt N_0.symm⟩
  intro a
  match a with
  | ⟨0, _⟩ => show win0_6.index _ (0 : Fin 3) * 1 ≤ (i 0).val ∧ (i 0).val < win0_6.index _ (0 : Fin 3) * 1 + 1; simp only [e0]; omega
  | ⟨1, _⟩ => show win0_6.index _ (1 : Fin 3) * 1024 ≤ (i 1).val ∧ (i 1).val < win0_6.index _ (1 : Fin 3) * 1024 + 1024; have h1 : (i 1).val < 1024 := (i 1).isLt; simp only [e1]; omega
  | ⟨2, _⟩ => show win0_6.index _ (2 : Fin 3) * 512 ≤ (i 2).val ∧ (i 2).val < win0_6.index _ (2 : Fin 3) * 512 + 512; have h2 : (i 2).val < 512 := (i 2).isLt; simp only [e2]; omega

/-- THE RESULT ARRAY after the run is `wholeOut` of the arrays as the region finds them. -/
theorem final (c : Dev nD) : (dats m 0 c).arrAt 6 cfg0.N
    = wholeOut (V m c main_v0) (V m c main_v5) (V m c main_v7) (V m c main_v9) (V m c main_v10) (V m c main_v23) :=
  (dats m 0 c).arrAt_eq_of_cover 6 _ (fun t _ => flushed_eq m c t) cover

/-! ## The run, read -/

/-- The frame run re-posted: the result array at `wholeOut` of the arrays as the region finds them, the nine
    arguments unchanged. -/
theorem run : θ_run defs (onTc (τ := τ) (main (F := F))) ⟨m, fun _ => 0, ρ⟩ fun r => ∀ c : Dev nD,
      r.2.mem ((c.tc : Thread nD τ).loc main_v24)
        = wholeOut (V m c main_v0) (V m c main_v5) (V m c main_v7) (V m c main_v9) (V m c main_v10) (V m c main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨((h c).1 6).trans (final m c), kept_args m r h c⟩) (run_main m ρ)

end Cert.KernelIdeal.HandValue

end
-- ==== Proof.Spec.lean ====
/-
  The mathematics of one batch element of agent attention, on the extended reals.

  For a token block `X` (1024 tokens of 512 channels) and four dense layers `(Wq, bq)`, `(Wk, bk)`, `(Wv, bv)`,
  `(Wo, bo)`: queries, keys and values are the rows `X Wᵀ + b`; sixteen agents are the means of the queries over
  consecutive groups of 64 tokens; every token attends to the agents (a softmax over 16 scaled scores), every agent
  attends to the tokens' keys (a softmax over 1024 scaled scores) and gathers their values; a token's result is its
  agent weights applied to what the agents gathered, passed through the output layer.

  Two arrangements of this are stated: `outK` forms the agents by a product with the averaging matrix whose entry
  `(m, n)` is `[n / 64 = m] / 64`, and applies the output layer to the sixteen agent rows BEFORE the token weights;
  `outR` forms the agents as a group sum divided by 64, and applies the output layer AFTER the token weights. `outKraw`
  is `outK` over one fused weight matrix `[512, 1536]`, one fused bias and a given averaging matrix.
-/
import Idealize.ShloMosaic.PureOps.Ideal
import Mathlib

noncomputable section

namespace Cert.Attn

open Idealize.ShloMosaic

/-- The scale `512^(-1/2)` as the single-precision word both programs print. -/
def sc : EReal := Ideal.ofBits .f32 0x3D3504F3#32
/-- The word of `-∞`, the seed of a row maximum. -/
def ninf : EReal := Ideal.ofBits .f32 0xFF800000#32
/-- The word of `64`, the group size. -/
def c64 : EReal := Ideal.ofBits .f32 0x42800000#32

variable {N C D M : ℕ}

/-- One dense layer, row by row: `(X Wᵀ + b) (n, d) = ∑ c, X (n, c) · W (d, c) + b d`. -/
def lin (X : Fin N → Fin C → EReal) (W : Fin D → Fin C → EReal) (b : Fin D → EReal) (n : Fin N) (d : Fin D) : EReal :=
  (∑ c, X n c * W d c) + b d

/-- A row's maximum, seeded with `-∞` and joined with `-∞` once more, as a softmax takes it. -/
def rowMax {n : ℕ} (s : Fin n → EReal) : EReal := max ninf ((Finset.univ : Finset (Fin n)).fold max ninf s)

/-- The softmax of a row: `exp (s j - max s) / ∑ k, exp (s k - max s)`. -/
def smax {n : ℕ} (s : Fin n → EReal) (j : Fin n) : EReal :=
  Ideal.div (Ideal.exp (s j - rowMax s)) (∑ k, Ideal.exp (s k - rowMax s))

/-- Scaled scores of the rows of `P` against the rows of `R`: `(∑ c, P (i, c) · R (j, c)) · 512^(-1/2)`. -/
def score {I J : ℕ} (P : Fin I → Fin C → EReal) (R : Fin J → Fin C → EReal) (i : Fin I) (j : Fin J) : EReal :=
  (∑ c, P i c * R j c) * sc

/-- The indicator of token `n` lying in group `m`. -/
def onehot (n : Fin 1024) (m : Fin 16) : EReal := if n.val / 64 = m.val then 1 else 0

/-- Token `g` of group `m`. -/
def tok (m : Fin 16) (g : Fin 64) : Fin 1024 := ⟨m.val * 64 + g.val, by have := m.isLt; have := g.isLt; omega⟩

/-- The agents as a product with the averaging matrix. -/
def poolK (Q : Fin 1024 → Fin 512 → EReal) (m : Fin 16) (c : Fin 512) : EReal :=
  ∑ n, Ideal.div (onehot n m) c64 * Q n c

/-- The agents as group sums divided by the group size. -/
def poolR (Q : Fin 1024 → Fin 512 → EReal) (m : Fin 16) (c : Fin 512) : EReal :=
  Ideal.div (∑ g : Fin 64, Q (tok m g) c) c64

/-- What the agents gather: `∑ n, U (m, n) · V (n, c)`. -/
def gather (U : Fin 16 → Fin 1024 → EReal) (V : Fin 1024 → Fin 512 → EReal) (m : Fin 16) (c : Fin 512) : EReal :=
  ∑ n, U m n * V n c

section
variable (X : Fin 1024 → Fin 512 → EReal) (Wq : Fin 512 → Fin 512 → EReal) (bq : Fin 512 → EReal)
  (Wk : Fin 512 → Fin 512 → EReal) (bk : Fin 512 → EReal) (Wv : Fin 512 → Fin 512 → EReal) (bv : Fin 512 → EReal)
  (Wo : Fin 512 → Fin 512 → EReal) (bo : Fin 512 → EReal)

/-- The result with the output layer applied to the agent rows first. -/
def outK (n : Fin 1024) (d : Fin 512) : EReal :=
  (∑ m, smax (score (lin X Wq bq) (poolK (lin X Wq bq)) n) m
      * ∑ c, gather (fun m => smax (score (poolK (lin X Wq bq)) (lin X Wk bk) m)) (lin X Wv bv) m c * Wo d c) + bo d

/-- The result with the output layer applied after the token weights. -/
def outR (n : Fin 1024) (d : Fin 512) : EReal :=
  (∑ c, (∑ m, smax (score (lin X Wq bq) (poolR (lin X Wq bq)) n) m
      * gather (fun m => smax (score (poolR (lin X Wq bq)) (lin X Wk bk) m)) (lin X Wv bv) m c) * Wo d c) + bo d
end

/-- Column `d` of part `p` (queries 0, keys 1, values 2) of a fused `[…, 1536]` axis. -/
def col (p : Fin 3) (d : Fin 512) : Fin 1536 := ⟨p.val * 512 + d.val, by have := p.isLt; have := d.isLt; omega⟩

/-- One fused dense layer `X Wc + Bc` over the `[512, 1536]` weights, read at part `p`. -/
def linc (X : Fin 1024 → Fin 512 → EReal) (Wc : Fin 512 → Fin 1536 → EReal) (Bc : Fin 1536 → EReal) (p : Fin 3)
    (n : Fin 1024) (d : Fin 512) : EReal :=
  (∑ c, X n c * Wc c (col p d)) + Bc (col p d)

/-- The agents as a product with a given averaging matrix. -/
def poolM (Pm : Fin 16 → Fin 1024 → EReal) (Q : Fin 1024 → Fin 512 → EReal) (m : Fin 16) (c : Fin 512) : EReal :=
  ∑ n, Pm m n * Q n c

/-- `outK` over fused, transposed operands: weights `Wc` `[512, 1536]`, bias `Bc`, the output weights transposed
    (`WoT (c, d)`), and a given averaging matrix `Pm`. -/
def outKraw (X : Fin 1024 → Fin 512 → EReal) (Wc : Fin 512 → Fin 1536 → EReal) (Bc : Fin 1536 → EReal)
    (WoT : Fin 512 → Fin 512 → EReal) (bo : Fin 512 → EReal) (Pm : Fin 16 → Fin 1024 → EReal)
    (n : Fin 1024) (d : Fin 512) : EReal :=
  (∑ m, smax (score (linc X Wc Bc 0) (poolM Pm (linc X Wc Bc 0)) n) m
      * ∑ c, gather (fun m => smax (score (poolM Pm (linc X Wc Bc 0)) (linc X Wc Bc 1) m)) (linc X Wc Bc 2) m c * WoT c d) + bo d

end Cert.Attn

end
-- ==== Proof.HostOps.lean ====
/-
  What the six staged arrays of the attention kernel hold when its grid region is entered, read entry by entry.

  Before the region the program prepares its operands from the activations `X` and the four dense layers
  `(Wq, bq)`, `(Wk, bk)`, `(Wv, bv)`, `(Wo, bo)`:
  • the activations are narrowed to the sixteen-bit format, which on the extended reals is the identity;
  • the three input layers' weights are transposed and set side by side along the columns, so that column
    `p * 512 + d` of row `k` of the fused weight is `W_p (d, k)`; their biases are set end to end as one row;
  • the output weights are transposed and the output bias is made a row;
  • the averaging matrix is built from integers: the token number `n` (an iota) is floor-divided by `64`, compared
    for equality with the group number `a`, the one-bit answer is read as `0` or `1`, divided by `64` and the
    `[1024, 16]` table transposed: entry `(a, n)` is `[n / 64 = a] / 64`.
  The floor division is written on 32-bit words as the truncating quotient, less one where the operands' signs
  differ and the remainder is nonzero; for `0 ≤ n < 1024` and the divisor `64` that correction never applies, which is
  checked word by word over the 1024 token numbers.
-/
import proofs.«102939_j77532749627633_2_alg».proof.Proof.KIData
import proofs.«102939_j77532749627633_2_alg».proof.Proof.Spec
import Idealize.ShloMosaic.Lib.ValueIdx
import Idealize.ShloMosaic.Lib.Pipeline.Value
import Idealize.ShloMosaic.Lib.ValueLayout
import Idealize.ShloMosaic.Lib.IdealHost
import Idealize.ShloMosaic.Lib.StableHlo.Run
import Idealize.ShloMosaic.PureOps.Ideal
import Idealize.ShloMosaic.PureOps.Ideal.Laws

set_option maxRecDepth 16384

noncomputable section

namespace Cert.Attn.HostOps

open Cert.KernelIdeal Cert.KernelIdeal.Gen Cert.KernelIdeal.Hand
open Idealize.ShloMosaic Idealize.ShloMosaic.TcCoe Idealize.ShloMosaic.ValueIdx

/-! ## The group number of a token, on 32-bit words -/

/-- The sign word of a 32-bit integer: `0`, `-1` or `1`. -/
def sgn (x : BitVec 32) : BitVec 32 := if x = 0 then 0 else if x.msb then -1 else 1

/-- Floor division by `64` as the integer program forms it: the quotient rounded toward zero, less one where the
    operands' signs differ and the remainder is not zero. -/
def floorDiv64 (x : BitVec 32) : BitVec 32 :=
  Scalar.select (IntOp.andi (IntOp.cmpi .ne (sgn x) (sgn 64#32)) (IntOp.cmpi .ne (IntOp.remsi .host x 64#32) 0#32))
    (IntOp.subi (IntOp.divsi .host x 64#32) 1#32) (IntOp.divsi .host x 64#32)

/-- For a token number `0 ≤ n < 1024` the correction never applies and the word is that of `n / 64`. -/
theorem floorDiv64_word : ∀ n : Fin 1024, floorDiv64 (BitVec.ofNat 32 n.val) = BitVec.ofNat 32 (n.val / 64) := by
  decide +kernel

/-- Two numbers below `2 ^ 32` have the same 32-bit word only if they are equal. -/
theorem ofNat32_inj {x y : ℕ} (hx : x < 2 ^ 32) (hy : y < 2 ^ 32) (e : BitVec.ofNat 32 x = BitVec.ofNat 32 y) : x = y := by
  have := congrArg BitVec.toNat e
  rwa [BitVec.toNat_ofNat, BitVec.toNat_ofNat, Nat.mod_eq_of_lt hx, Nat.mod_eq_of_lt hy] at this

/-- The equality test of two 32-bit arrays, its one-bit word read unsigned as a number: `1` where the words
    agree and `0` elsewhere. -/
theorem uitofp_cmpi_eq_read {s : Shape} (A B : IVec s 32) (i : s.Idx) (x y : BitVec 32) (hA : A i = x) (hB : B i = y) :
    (uitofp (F := Ideal) .f32 (cmpi .eq A B) : FVec Ideal s .f32) i = if x = y then (1 : EReal) else 0 := by
  subst hA hB
  show (((BitVec.ofBool (A i == B i)).toNat : ℝ) : EReal) = _
  by_cases h : A i = B i
  · simp [h]
  · simp [h]

/-! ## The arrays the region finds -/

/-- Each operation's result at its own array is its function of its operands' contents, and any other array is
    as it was before the operation. -/
macro "host_results" : tactic =>
  `(tactic| simp (disch := decide) only [StableHlo.after_cons, StableHlo.after_nil, Matrix.cons_val,
      StableHlo.nullary_result', StableHlo.unary_result', StableHlo.binary_result', StableHlo.ternary_result',
      StableHlo.reshape_result', StableHlo.nary_result',
      StableHlo.nullary_result_ne', StableHlo.unary_result_ne', StableHlo.binary_result_ne', StableHlo.ternary_result_ne',
      StableHlo.reshape_result_ne', StableHlo.nary_result_ne'])

/-- The same, for operand arrays that came to light under a several-operand operation. -/
macro "host_reads" : tactic =>
  `(tactic| repeat (first
      | rw [StableHlo.nullary_result] | rw [StableHlo.unary_result] | rw [StableHlo.binary_result] | rw [StableHlo.ternary_result]
      | rw [StableHlo.reshape_result] | rw [StableHlo.nary_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide)
      | (rw [StableHlo.nary_result_ne]; rotate_left; decide)))

variable (m : (ℓ : Loc nD τ sig) → Buf (Elt Ideal) ℓ) (c : Dev nD)

/-! ### The activations -/

/-- The activations as staged: the conversion to the narrower format is the identity on the extended reals. -/
theorem v0_apply (b : Fin 64) (n : Fin 1024) (k : Fin 512) :
    (V m c main_v0 : S64x1024x512.Idx → EReal) (ix3 b n k)
      = (m ((c : Thread nD τ).loc main_arg0) : S64x1024x512.Idx → EReal) (ix3 b n k) := by
  dsimp only [V]
  simp only [Gen.hostOps0, Gen.hostOps0_1, Gen.hostOps0_2, List.flatten_cons, List.flatten_nil, List.append_nil, List.cons_append, List.nil_append]
  host_results
  rfl

/-! ### The fused weight: the three layers' weights transposed, side by side along the columns -/

/-- Columns 0 … 511 of the fused weight are the query weights transposed. -/
theorem v5_q (k d : Fin 512) :
    (V m c main_v5 : S512x1536.Idx → EReal) (ix2 k (Cert.Attn.col 0 d))
      = (m ((c : Thread nD τ).loc main_arg1) : S512x512.Idx → EReal) (ix2 d k) := by
  dsimp only [V]
  simp only [Gen.hostOps0, Gen.hostOps0_1, Gen.hostOps0_2, List.flatten_cons, List.flatten_nil, List.append_nil, List.cons_append, List.nil_append]
  host_results
  host_reads
  refine (truncf_apply (φ := .f32) (ψ := .bf16) _ bitsLt_bf16_f32 _).trans ?_
  refine (concatenate_apply_piece _ _ _ (ix2 k (Cert.Attn.col 0 d)) 0 (by show (0 : ℕ) < 3; decide) S512x512 _ (by rfl) (by rfl) 0 (by rfl)
    (ix2 k d) ?_ ?_).trans ?_
  · intro b hb
    match b, hb with
    | ⟨0, _⟩, _ => rfl
    | ⟨1, _⟩, hb => exact absurd rfl hb
  · show 0 + d.val = 0 * 512 + d.val
    omega
  · exact transpose_ix2_apply _ _ k d

/-- Columns 512 … 1023 of the fused weight are the key weights transposed. -/
theorem v5_k (k d : Fin 512) :
    (V m c main_v5 : S512x1536.Idx → EReal) (ix2 k (Cert.Attn.col 1 d))
      = (m ((c : Thread nD τ).loc main_arg3) : S512x512.Idx → EReal) (ix2 d k) := by
  dsimp only [V]
  simp only [Gen.hostOps0, Gen.hostOps0_1, Gen.hostOps0_2, List.flatten_cons, List.flatten_nil, List.append_nil, List.cons_append, List.nil_append]
  host_results
  host_reads
  refine (truncf_apply (φ := .f32) (ψ := .bf16) _ bitsLt_bf16_f32 _).trans ?_
  refine (concatenate_apply_piece _ _ _ (ix2 k (Cert.Attn.col 1 d)) 1 (by show (1 : ℕ) < 3; decide) S512x512 _ (by rfl) (by rfl) 512 (by rfl)
    (ix2 k d) ?_ ?_).trans ?_
  · intro b hb
    match b, hb with
    | ⟨0, _⟩, _ => rfl
    | ⟨1, _⟩, hb => exact absurd rfl hb
  · show 512 + d.val = 1 * 512 + d.val
    omega
  · exact transpose_ix2_apply _ _ k d

/-- Columns 1024 … 1535 of the fused weight are the value weights transposed. -/
theorem v5_v (k d : Fin 512) :
    (V m c main_v5 : S512x1536.Idx → EReal) (ix2 k (Cert.Attn.col 2 d))
      = (m ((c : Thread nD τ).loc main_arg5) : S512x512.Idx → EReal) (ix2 d k) := by
  dsimp only [V]
  simp only [Gen.hostOps0, Gen.hostOps0_1, Gen.hostOps0_2, List.flatten_cons, List.flatten_nil, List.append_nil, List.cons_append, List.nil_append]
  host_results
  host_reads
  refine (truncf_apply (φ := .f32) (ψ := .bf16) _ bitsLt_bf16_f32 _).trans ?_
  refine (concatenate_apply_piece _ _ _ (ix2 k (Cert.Attn.col 2 d)) 2 (by show (2 : ℕ) < 3; decide) S512x512 _ (by rfl) (by rfl) 1024 (by rfl)
    (ix2 k d) ?_ ?_).trans ?_
  · intro b hb
    match b, hb with
    | ⟨0, _⟩, _ => rfl
    | ⟨1, _⟩, hb => exact absurd rfl hb
  · show 1024 + d.val = 2 * 512 + d.val
    omega
  · exact transpose_ix2_apply _ _ k d

/-- One of three things, by part: queries 0, keys 1, values 2. -/
def part {α : Type} (q k v : α) : Fin 3 → α
  | ⟨0, _⟩ => q
  | ⟨1, _⟩ => k
  | ⟨2, _⟩ => v

@[simp] theorem part_zero {α : Type} (q k v : α) : part q k v 0 = q := rfl
@[simp] theorem part_one {α : Type} (q k v : α) : part q k v 1 = k := rfl
@[simp] theorem part_two {α : Type} (q k v : α) : part q k v 2 = v := rfl

/-- The fused weight at column `d` of part `p`: that part's weight, transposed. -/
theorem v5_apply (k : Fin 512) (p : Fin 3) (d : Fin 512) :
    (V m c main_v5 : S512x1536.Idx → EReal) (ix2 k (Cert.Attn.col p d))
      = part (m ((c : Thread nD τ).loc main_arg1) : S512x512.Idx → EReal) (m ((c : Thread nD τ).loc main_arg3))
          (m ((c : Thread nD τ).loc main_arg5)) p (ix2 d k) := by
  match p with
  | ⟨0, _⟩ => exact v5_q m c k d
  | ⟨1, _⟩ => exact v5_k m c k d
  | ⟨2, _⟩ => exact v5_v m c k d

/-! ### The fused bias: the three layers' biases end to end, as one row -/

/-- Entries 0 … 511 of the fused bias are the query bias. -/
theorem v7_q (d : Fin 512) :
    (V m c main_v7 : S1x1536.Idx → EReal) (ix2 (0 : Fin 1) (Cert.Attn.col 0 d))
      = (m ((c : Thread nD τ).loc main_arg2) : S512.Idx → EReal) (ix1 d) := by
  dsimp only [V]
  simp only [Gen.hostOps0, Gen.hostOps0_1, Gen.hostOps0_2, List.flatten_cons, List.flatten_nil, List.append_nil, List.cons_append, List.nil_append]
  host_results
  host_reads
  refine (shapeCast_a_1a_apply _ _ 0 (Cert.Attn.col 0 d)).trans ?_
  refine concatenate_apply_piece _ _ _ (ix1 (Cert.Attn.col 0 d)) 0 (by show (0 : ℕ) < 3; decide) S512 _ (by rfl) (by rfl) 0 (by rfl)
    (ix1 d) ?_ ?_
  · intro b hb
    match b, hb with
    | ⟨0, _⟩, hb => exact absurd rfl hb
  · show 0 + d.val = 0 * 512 + d.val
    omega

/-- Entries 512 … 1023 of the fused bias are the key bias. -/
theorem v7_k (d : Fin 512) :
    (V m c main_v7 : S1x1536.Idx → EReal) (ix2 (0 : Fin 1) (Cert.Attn.col 1 d))
      = (m ((c : Thread nD τ).loc main_arg4) : S512.Idx → EReal) (ix1 d) := by
  dsimp only [V]
  simp only [Gen.hostOps0, Gen.hostOps0_1, Gen.hostOps0_2, List.flatten_cons, List.flatten_nil, List.append_nil, List.cons_append, List.nil_append]
  host_results
  host_reads
  refine (shapeCast_a_1a_apply _ _ 0 (Cert.Attn.col 1 d)).trans ?_
  refine concatenate_apply_piece _ _ _ (ix1 (Cert.Attn.col 1 d)) 1 (by show (1 : ℕ) < 3; decide) S512 _ (by rfl) (by rfl) 512 (by rfl)
    (ix1 d) ?_ ?_
  · intro b hb
    match b, hb with
    | ⟨0, _⟩, hb => exact absurd rfl hb
  · show 512 + d.val = 1 * 512 + d.val
    omega

/-- Entries 1024 … 1535 of the fused bias are the value bias. -/
theorem v7_v (d : Fin 512) :
    (V m c main_v7 : S1x1536.Idx → EReal) (ix2 (0 : Fin 1) (Cert.Attn.col 2 d))
      = (m ((c : Thread nD τ).loc main_arg6) : S512.Idx → EReal) (ix1 d) := by
  dsimp only [V]
  simp only [Gen.hostOps0, Gen.hostOps0_1, Gen.hostOps0_2, List.flatten_cons, List.flatten_nil, List.append_nil, List.cons_append, List.nil_append]
  host_results
  host_reads
  refine (shapeCast_a_1a_apply _ _ 0 (Cert.Attn.col 2 d)).trans ?_
  refine concatenate_apply_piece _ _ _ (ix1 (Cert.Attn.col 2 d)) 2 (by show (2 : ℕ) < 3; decide) S512 _ (by rfl) (by rfl) 1024 (by rfl)
    (ix1 d) ?_ ?_
  · intro b hb
    match b, hb with
    | ⟨0, _⟩, hb => exact absurd rfl hb
  · show 1024 + d.val = 2 * 512 + d.val
    omega

/-- The fused bias at entry `d` of part `p`: that part's bias. -/
theorem v7_apply (p : Fin 3) (d : Fin 512) :
    (V m c main_v7 : S1x1536.Idx → EReal) (ix2 (0 : Fin 1) (Cert.Attn.col p d))
      = part (m ((c : Thread nD τ).loc main_arg2) : S512.Idx → EReal) (m ((c : Thread nD τ).loc main_arg4))
          (m ((c : Thread nD τ).loc main_arg6)) p (ix1 d) := by
  match p with
  | ⟨0, _⟩ => exact v7_q m c d
  | ⟨1, _⟩ => exact v7_k m c d
  | ⟨2, _⟩ => exact v7_v m c d

/-! ### The output layer -/

/-- The output weights as staged: transposed. -/
theorem v9_apply (k d : Fin 512) :
    (V m c main_v9 : S512x512.Idx → EReal) (ix2 k d)
      = (m ((c : Thread nD τ).loc main_arg7) : S512x512.Idx → EReal) (ix2 d k) := by
  dsimp only [V]
  simp only [Gen.hostOps0, Gen.hostOps0_1, Gen.hostOps0_2, List.flatten_cons, List.flatten_nil, List.append_nil, List.cons_append, List.nil_append]
  host_results
  exact transpose_ix2_apply _ _ k d

/-- The output bias as staged: one row. -/
theorem v10_apply (d : Fin 512) :
    (V m c main_v10 : S1x512.Idx → EReal) (ix2 (0 : Fin 1) d)
      = (m ((c : Thread nD τ).loc main_arg8) : S512.Idx → EReal) (ix1 d) := by
  dsimp only [V]
  simp only [Gen.hostOps0, Gen.hostOps0_1, Gen.hostOps0_2, List.flatten_cons, List.flatten_nil, List.append_nil, List.cons_append, List.nil_append]
  host_results
  exact shapeCast_a_1a_apply _ _ 0 d

/-! ### The averaging matrix -/

set_option maxHeartbeats 4000000 in
/-- The group number of token `n` as the integer program leaves it: the word of `n / 64`. -/
theorem v12_apply (n : Fin 1024) :
    (V m c main_v12 : S1024.Idx → BitVec 32) (ix1 n) = BitVec.ofNat 32 (n.val / 64) := by
  dsimp only [V]
  simp only [Gen.hostOps0, Gen.hostOps0_1, Gen.hostOps0_2, List.flatten_cons, List.flatten_nil, List.append_nil, List.cons_append, List.nil_append]
  host_results
  refine Eq.trans ?_ (floorDiv64_word n)
  simp only [StableHlo.TRef.toBuf, StableHlo.TRef.ofBuf, cast_eq, id_eq]
  rfl

set_option maxHeartbeats 4000000 in
/-- The averaging matrix: entry `(a, n)` is the indicator of token `n` lying in group `a`, divided by `64`. -/
theorem v23_apply (a : Fin 16) (n : Fin 1024) :
    (V m c main_v23 : S16x1024.Idx → EReal) (ix2 a n) = Ideal.div (Cert.Attn.onehot n a) Cert.Attn.c64 := by
  dsimp only [V]
  simp only [Gen.hostOps0, Gen.hostOps0_1, Gen.hostOps0_2, List.flatten_cons, List.flatten_nil, List.append_nil, List.cons_append, List.nil_append]
  host_results
  simp only [StableHlo.TRef.toBuf, StableHlo.TRef.ofBuf, cast_eq, id_eq]
  refine (truncf_apply (φ := .f32) (ψ := .bf16) _ bitsLt_bf16_f32 _).trans ?_
  refine (transpose_ix2_apply _ _ a n).trans ?_
  refine (hostDivf_apply _ _ _).trans ?_
  refine congrArg₂ Ideal.div ?_ ?_
  · refine (uitofp_cmpi_eq_read _ _ _ (BitVec.ofNat 32 (n.val / 64)) (BitVec.ofNat 32 a.val) ?_ ?_).trans ?_
    · refine (broadcastInDim_apply _ _ _ (ix2 n a) (ix2 n (0 : Fin 1)) ?_).trans ?_
      · intro b
        match b with
        | ⟨0, _⟩ => rfl
        | ⟨1, _⟩ => rfl
      refine (broadcastInDim_apply _ _ _ (ix2 n (0 : Fin 1)) (ix1 n) ?_).trans ?_
      · intro b
        match b with
        | ⟨0, _⟩ => rfl
      exact floorDiv64_word n
    · refine (broadcastInDim_apply _ _ _ (ix2 n a) (ix2 (0 : Fin 1) a) ?_).trans ?_
      · intro b
        match b with
        | ⟨0, _⟩ => rfl
        | ⟨1, _⟩ => rfl
      refine (broadcastInDim_apply _ _ _ (ix2 (0 : Fin 1) a) (ix1 a) ?_).trans ?_
      · intro b
        match b with
        | ⟨0, _⟩ => rfl
      rfl
    · unfold Cert.Attn.onehot
      have hn := n.isLt
      have ha := a.isLt
      by_cases h : n.val / 64 = a.val
      · rw [if_pos h, if_pos (by rw [h])]
      · rw [if_neg h, if_neg]
        intro e
        exact h (ofNat32_inj (by omega) (by omega) e)
  · exact (broadcastInDim_scalar_apply _ _ _).trans rfl

end Cert.Attn.HostOps

end
-- ==== Proof.Finite.lean ====
/-
  Finite inputs: the precondition says that every entry of every input array is a real number.

  The printed predicate compares the absolute value of every entry of each of the nine inputs with +∞, takes the
  conjunction over each array, and joins the nine results. It is all ones exactly when every comparison is true, and
  an extended real whose absolute value lies strictly below +∞ is neither infinity, hence a real number.
-/
import proofs.«102939_j77532749627633_2_alg».proof.Pre_finite_inputs
import Idealize.ShloMosaic.Lib.ReduceAll
import Idealize.ShloMosaic.PureOps.Ideal.Laws

noncomputable section

namespace Cert.Attn.Finite

open Idealize.ShloMosaic
open Cert.Pre_finite_inputs

/-- The rank-0 shape has exactly one index (the empty tuple). -/
instance scalarIdxSubsingleton : Subsingleton S_.Idx := ⟨fun a b => funext fun d => d.elim0⟩

/-- The f32 pattern with all-ones exponent, zero fraction and clear sign denotes +∞. -/
theorem plusInf_bits : Ideal.ofBits .f32 0x7F800000#32 = (⊤ : EReal) := by
  simp [Ideal.ofBits, Ideal.ieee]

/-- An extended real whose absolute value max x (-x) is strictly below +∞ is a real number:
    at ⊥ the negation is ⊤, at ⊤ the value itself is ⊤, and neither is below ⊤. -/
theorem real_of_abs_lt_top (x : EReal) (h : max x (-x) < ⊤) : ∃ r : ℝ, x = (r : EReal) := by
  induction x using EReal.rec with
  | bot => simp at h
  | coe r => exact ⟨r, rfl⟩
  | top => simp at h

/-- One entry: the comparison |x| < +∞ coming out true makes x a real number. -/
theorem real_of_cmp (x : Ideal .f32)
    (h : FloatOps.cmpf .olt (FloatOps.hostAbsf x) (FloatOps.ofBits (F := Ideal) .f32 0x7F800000#32) = 1#1) :
    ∃ r : ℝ, x = (r : EReal) := by
  rw [Ideal.hostAbsf_def, Ideal.cmpf_def, Ideal.absf_def] at h
  have hc : FloatOps.ofBits (F := Ideal) .f32 0x7F800000#32 = (⊤ : EReal) := plusInf_bits
  rw [hc] at h
  have hlt : max x (-x) < (⊤ : EReal) := by
    by_contra hn
    simp [Ideal.cmp, hn] at h
  exact real_of_abs_lt_top x hlt

/-- jnp.all(|x| < +∞) over an array of any shape: when the and-reduction over all axes of the
    entrywise comparison against the broadcast +∞ comes out 1, every entry is a real number. -/
theorem all_real_of_reduce {s : Shape} {axes : List (Fin s.rank)} (x : FVec Ideal s .f32)
    (hb : S_.BroadcastsInDim s (![] : Fin 0 → Fin s.rank)) (hr : s.ReducesTo axes S_) (h0 : 0 < S_.numel) (j : S_.Idx)
    (e : Host.reduce IntOp.andi
          (cmpf .olt (Host.absf x) (broadcastInDim s ![] hb (constant S_ .f32 0x7F800000#32)))
          (constantI S_ 1 1#1) hr h0 j = 1#1) :
    ∀ i, ∃ r : ℝ, x i = (r : EReal) := by
  intro i
  have hi := Host.reduce_andi_all _ _ hr h0 j e i
  exact real_of_cmp (x i) hi

/-- The precondition, opened: the nine-fold conjunction of the per-input all-reductions is 1 exactly when each
    of them is, and each all-reduction being 1 makes every entry of its input a real number. -/
theorem finite_of_pre [Cert.Pre_finite_inputs.Facts] (a0 : FVec Ideal Cert.Pre_finite_inputs.S64x1024x512 .f32) (a1 : FVec Ideal Cert.Pre_finite_inputs.S512x512 .f32) (a2 : FVec Ideal Cert.Pre_finite_inputs.S512 .f32) (a3 : FVec Ideal Cert.Pre_finite_inputs.S512x512 .f32) (a4 : FVec Ideal Cert.Pre_finite_inputs.S512 .f32) (a5 : FVec Ideal Cert.Pre_finite_inputs.S512x512 .f32) (a6 : FVec Ideal Cert.Pre_finite_inputs.S512 .f32) (a7 : FVec Ideal Cert.Pre_finite_inputs.S512x512 .f32) (a8 : FVec Ideal Cert.Pre_finite_inputs.S512 .f32)
      (h : Cert.Pre_finite_inputs.fn (F := Ideal) a0 a1 a2 a3 a4 a5 a6 a7 a8 = fun _ => 1#1) :
      (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) ∧ (∀ i, ∃ r : ℝ, a4 i = (r : EReal)) ∧ (∀ i, ∃ r : ℝ, a5 i = (r : EReal)) ∧ (∀ i, ∃ r : ℝ, a6 i = (r : EReal)) ∧ (∀ i, ∃ r : ℝ, a7 i = (r : EReal)) ∧ (∀ i, ∃ r : ℝ, a8 i = (r : EReal)) := by
  have e := congrFun h (fun d => d.elim0)
  dsimp only [Cert.Pre_finite_inputs.fn] at e
  dsimp only [Cert.Pre_finite_inputs.fn_part1] at e
  dsimp only [Cert.Pre_finite_inputs.fn_part2] at e
  dsimp only [andi] at e
  simp only [IntOp.andi_eq_one] at e
  obtain ⟨⟨⟨⟨⟨⟨⟨⟨e0, e1⟩, e2⟩, e3⟩, e4⟩, e5⟩, e6⟩, e7⟩, e8⟩ := e
  exact ⟨all_real_of_reduce a0 _ _ _ _ e0, all_real_of_reduce a1 _ _ _ _ e1, all_real_of_reduce a2 _ _ _ _ e2,
    all_real_of_reduce a3 _ _ _ _ e3, all_real_of_reduce a4 _ _ _ _ e4, all_real_of_reduce a5 _ _ _ _ e5,
    all_real_of_reduce a6 _ _ _ _ e6, all_real_of_reduce a7 _ _ _ _ e7, all_real_of_reduce a8 _ _ _ _ e8⟩

end Cert.Attn.Finite

end
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.LibTransposedDot.lean ====
/-
  A matrix product whose right operand is contracted on its LAST axis, read at an entry, at the ideal instance.

  For dimension numbers that contract the left operand's columns with the right operand's columns and have no batch
  axis (`DotDims.transposedRhs m k n`: `l rᵀ` without a materialised transpose), the kernel's product into a zero
  accumulator is, at entry `(p, j)`, the sum over `q < k` of `l (p, q) · r (j, q)` on the extended reals. Stated for
  any record equal to that one, so that each printed record (a `def` of its own) can be cited by `rfl`.
-/
import Idealize.ShloMosaic.Lib.ValueIdx
import Idealize.ShloMosaic.PureOps.Ideal.Laws

noncomputable section

namespace Cert.TransposedDot

open Idealize.ShloMosaic Idealize.ShloMosaic.ValueIdx

variable {m k n : Nat} {φ₁ φ₂ : FTy}

/-- The sum over the one contraction axis, re-indexed by `Fin k`, with the operand indices at an output entry
    `(p, j)` written by coordinates: row `p` of the left operand against row `j` of the right. -/
theorem sum_transposed (l : (⟨2, ![m, k]⟩ : Shape).Idx → EReal) (r : (⟨2, ![n, k]⟩ : Shape).Idx → EReal) (p : Fin m) (j : Fin n) :
    (∑ q : (DotDims.transposedRhs m k n).contr.Idx,
        l ((DotDims.transposedRhs m k n).lhsIdx (ix2 p j) q) * r ((DotDims.transposedRhs m k n).rhsIdx (ix2 p j) q))
      = ∑ q : Fin k, l (ix2 p q) * r (ix2 j q) := by
  rw [← Equiv.sum_comp (contrEquiv1 (DotDims.transposedRhs m k n) k rfl rfl).symm]
  refine Finset.sum_congr rfl fun q _ => ?_
  have hq := contrEquiv1_symm_val (DotDims.transposedRhs m k n) k rfl rfl q
  have el : (DotDims.transposedRhs m k n).lhsIdx (ix2 p j) ((contrEquiv1 (DotDims.transposedRhs m k n) k rfl rfl).symm q) = ix2 p q :=
    funext fun a => Fin.ext (by
      match a with
      | ⟨0, _⟩ => rfl
      | ⟨1, _⟩ => exact ((DotDims.transposedRhs m k n).lhsIdx_val_of_single rfl _ _).trans hq)
  have er : (DotDims.transposedRhs m k n).rhsIdx (ix2 p j) ((contrEquiv1 (DotDims.transposedRhs m k n) k rfl rfl).symm q) = ix2 j q :=
    funext fun a => Fin.ext (by
      match a with
      | ⟨0, _⟩ => rfl
      | ⟨1, _⟩ => exact ((DotDims.transposedRhs m k n).rhsIdx_val_of_single rfl _ _).trans hq)
  rw [el, er]

/-- The kernel's product into the zero splat, at entry `(p, j)`. -/
theorem matmul_zero_ix2 (D : DotDims ⟨2, ![m, k]⟩ ⟨2, ![n, k]⟩ ⟨2, ![m, n]⟩) (hD : D = DotDims.transposedRhs m k n)
    (prec : Option ContractPrecision) (l : FVec Ideal ⟨2, ![m, k]⟩ φ₁) (r : FVec Ideal ⟨2, ![n, k]⟩ φ₂) (p : Fin m) (j : Fin n) :
    matmul D prec l r (constant (F := Ideal) ⟨2, ![m, n]⟩ .f32 0x00000000#32) (ix2 p j) = ∑ q : Fin k, l (ix2 p q) * r (ix2 j q) := by
  subst hD
  simp only [matmul]
  rw [Ideal.matmul_constant_zero_apply]
  exact sum_transposed l r p j

end Cert.TransposedDot

end
-- ==== Proof.LibRank3.lean ====
/-
  Layout operations and one-axis reductions of rank-3 arrays read at an index written by coordinates.

  A reduction of `[a, b, c]` over its middle or its last axis with kept dimensions comes back over the reduced
  axis through a cast to `[a, 1, c]` (or `[a, b, 1]`) and a broadcast to `[a, b, c]`; the same two steps carry a
  matrix `[a, b]` along a new last axis (`[a, b] → [a, b, 1] → [a, b, c]`) or along a new middle axis
  (`[a, c] → [a, 1, c] → [a, b, c]`). Each is read here at `(i, j, k)`. The reductions: at the ideal values a sum
  over one axis is the `Fin`-indexed sum over that axis's coordinates, and a maximum over the last axis of a matrix
  is the fold of `max` over them. General lemmas: any extents.
-/
import Idealize.ShloMosaic.Lib.Pipeline.Value
import Idealize.ShloMosaic.Lib.ValueIdx
import Idealize.ShloMosaic.PureOps.Ideal.Laws

namespace Cert.LibRank3

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A matrix carried along a new last axis: `[a, b] → [a, b, 1] → [a, b, c]` at `(i, j, k)` is the matrix at `(i, j)`. -/
theorem keepLast_apply {a b c : ℕ} (x : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ x h) h' (ix3 i j k) = x (ix2 i j) :=
  (broadcastTo_ab1_abc_apply _ h' i j k).trans (shapeCast_ab_ab1_apply x h i j 0)

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A matrix carried along a new middle axis: `[a, c] → [a, 1, c] → [a, b, c]` at `(i, j, k)` is the matrix at `(i, k)`. -/
theorem keepMid_apply {a b c : ℕ} (x : (⟨2, ![a, c]⟩ : Shape).Idx → α)
    (h : (⟨2, ![a, c]⟩ : Shape).ShapeCasts ⟨3, ![a, 1, c]⟩) (h' : (⟨3, ![a, 1, c]⟩ : Shape).Broadcasts ⟨3, ![a, b, c]⟩)
    (i : Fin a) (j : Fin b) (k : Fin c) :
    broadcastTo ⟨3, ![a, b, c]⟩ (shapeCast ⟨3, ![a, 1, c]⟩ x h) h' (ix3 i j k) = x (ix2 i k) :=
  (broadcastTo_a1c_abc_apply _ h' i j k).trans (shapeCast_ac_a1c_apply x h i 0 k)

/-! ## One-axis reductions at the ideal values, at coordinates -/

variable {φ : FTy}

/-- The sum of an `[a, b]` matrix over its last axis, at row `i`. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ j : Fin b, src (ix2 i j) :=
  (Ideal.multiReduction_add_single src acc h hφ hacc (ix1 i)).trans
    (Finset.sum_congr rfl fun j _ => congrArg src (funext fun d => Fin.ext (by
      match d with | ⟨0, _⟩ => rfl | ⟨1, _⟩ => rfl)))

/-- The maximum of an `[a, b]` matrix over its last axis, at row `i`: the fold of `max` from the accumulator's value. -/
theorem max_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun j => src (ix2 i j)) :=
  (Ideal.multiReduction_maximumf_single src acc h hφ hacc (ix1 i)).trans
    (congrArg (Finset.fold max (Ideal.ofBits φ acc) · (Finset.univ : Finset (Fin b)))
      (funext fun j => congrArg src (funext fun d => Fin.ext (by
        match d with | ⟨0, _⟩ => rfl | ⟨1, _⟩ => rfl))))

/-- The sum of an `[a, b, c]` array over its middle axis, at `(i, k)`. -/
theorem sum_mid3 {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (funext fun d => Fin.ext (by
      match d with | ⟨0, _⟩ => rfl | ⟨1, _⟩ => rfl | ⟨2, _⟩ => rfl)))

/-- The sum of an `[a, b, c]` array over its last axis, at `(i, j)`. -/
theorem sum_last3 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun d => Fin.ext (by
      match d with | ⟨0, _⟩ => rfl | ⟨1, _⟩ => rfl | ⟨2, _⟩ => rfl)))

end Cert.LibRank3
-- ==== Proof.LibKeepdims.lean ====
/-
  Two layout operations read at an index written by coordinates, the pair a reduction with kept dimensions
  goes through on its way back over the reduced axis: a vector `[a]` cast to a column `[a, 1]`, and a
  column `[a, 1]` broadcast along the rows of `[a, b]`. General lemmas: any element type, any extents.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.LibRowBroadcast.lean ====
/-
  A row `[1, b]` broadcast down the rows of `[a, b]`, read at an index written by coordinates: the counterpart, for a
  bias row added to every row of a matrix, of a column `[a, 1]` broadcast along the rows. General lemma: any element
  type, any extents.
-/
import Idealize.ShloMosaic.Lib.Pipeline.Value
import Idealize.ShloMosaic.Lib.ValueIdx

namespace Cert.LibRowBroadcast

open Idealize.ShloMosaic Idealize.ShloMosaic.ValueIdx

/-- A row `[1, b]` broadcast down the rows of `[a, b]` reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

end Cert.LibRowBroadcast
-- ==== Proof.KPay.lean ====
/-
  The arithmetic of the attention kernel's body, read entry by entry on the extended reals.

  The body forms one fused projection `X·Wc + Bc` of the token block and cuts it into queries, keys and values; the
  sixteen agents are the averaging matrix times the queries; every token takes a softmax over its sixteen scaled
  scores against the agents, every agent a softmax over its 1024 scaled scores against the keys; the agents gather
  the values, pass through the output weights, and every token mixes the sixteen results by its weights and adds the
  output bias. Each stage is read here at an entry written by coordinates, and the chain ends in `outKraw`.
-/
import proofs.«102939_j77532749627633_2_alg».proof.Proof.Gen.KernelIdeal.Skeleton
import proofs.«102939_j77532749627633_2_alg».proof.Proof.Spec
import proofs.«102939_j77532749627633_2_alg».proof.Proof.LibPlainDot
import proofs.«102939_j77532749627633_2_alg».proof.Proof.LibTransposedDot
import proofs.«102939_j77532749627633_2_alg».proof.Proof.LibRank3
import proofs.«102939_j77532749627633_2_alg».proof.Proof.LibKeepdims
import proofs.«102939_j77532749627633_2_alg».proof.Proof.LibRowBroadcast
import Idealize.ShloMosaic.Lib.ValueLayout

noncomputable section

namespace Cert.Attn.KPay

open Cert.KernelIdeal Cert.KernelIdeal.Gen Idealize.ShloMosaic Idealize.ShloMosaic.ValueIdx

section Stages

variable [Cert.KernelIdeal.Facts]

/-- The fused projection at token `n`, fused column `j`. -/
theorem pay4_apply (x0 : Vec Ideal S1x1024x512 .bf16) (W : Vec Ideal S512x1536 .bf16) (B : Vec Ideal S1x1536 .f32)
    (n : Fin 1024) (j : Fin 1536) :
    k0_pay4 (F := Ideal) x0 W B (ix2 n j)
      = (∑ c : Fin 512, x0 (ix3 (0 : Fin 1) n c) * W (ix2 c j)) + B (ix2 (0 : Fin 1) j) := by
  unfold k0_pay4
  rw [addf_apply, Cert.PlainDot.matmul_zero_ix2 dot_S1024x512_S512x1536_S1024x1536_1_0_0_1_n_n rfl,
    Cert.LibRowBroadcast.broadcastTo_1b_ab_apply, shapeCast_self, shapeCast_self]
  refine congrArg (· + B (ix2 (0 : Fin 1) j)) (Finset.sum_congr rfl fun c _ => ?_)
  rw [shapeCast_1ab_ab_apply]

/-- The token block, the fused weights and bias, the output weights and bias, the averaging matrix: the argument vectors
    as functions of coordinates. -/
abbrev tokens (x0 : Vec Ideal S1x1024x512 .bf16) : Fin 1024 → Fin 512 → EReal := fun n c => x0 (ix3 (0 : Fin 1) n c)
abbrev fusedW (W : Vec Ideal S512x1536 .bf16) : Fin 512 → Fin 1536 → EReal := fun c j => W (ix2 c j)
abbrev fusedB (B : Vec Ideal S1x1536 .f32) : Fin 1536 → EReal := fun j => B (ix2 (0 : Fin 1) j)
abbrev outW (Wo : Vec Ideal S512x512 .bf16) : Fin 512 → Fin 512 → EReal := fun c d => Wo (ix2 c d)
abbrev outB (Bo : Vec Ideal S1x512 .f32) : Fin 512 → EReal := fun d => Bo (ix2 (0 : Fin 1) d)
abbrev avgM (Pm : Vec Ideal S16x1024 .bf16) : Fin 16 → Fin 1024 → EReal := fun m n => Pm (ix2 m n)

/-- Part `p` of the fused projection: the slice of its columns from `512·p` on is the dense layer read at part `p`. -/
theorem part_apply (p : Fin 3) (o : Nat) (ho : o = p.val * 512) (h : S1024x1536.Slices ![0, o] S1024x512)
    (x0 : Vec Ideal S1x1024x512 .bf16) (W : Vec Ideal S512x1536 .bf16) (B : Vec Ideal S1x1536 .f32)
    (n : Fin 1024) (d : Fin 512) :
    extractStridedSlice S1024x512 ![0, o] (k0_pay4 (F := Ideal) x0 W B) h (ix2 n d)
      = linc (tokens x0) (fusedW W) (fusedB B) p n d := by
  rw [slice2_axis1_apply o _ h n d (col p d) (by subst ho; rfl), pay4_apply]
  rfl

/-- The queries. -/
theorem pay5_apply (x0 : Vec Ideal S1x1024x512 .bf16) (W : Vec Ideal S512x1536 .bf16) (B : Vec Ideal S1x1536 .f32)
    (n : Fin 1024) (d : Fin 512) :
    k0_pay5 (F := Ideal) x0 W B (ix2 n d) = linc (tokens x0) (fusedW W) (fusedB B) 0 n d := by
  unfold k0_pay5
  rw [truncf_apply]
  exact part_apply 0 0 rfl _ x0 W B n d

/-- The values. -/
theorem pay6_apply (x0 : Vec Ideal S1x1024x512 .bf16) (W : Vec Ideal S512x1536 .bf16) (B : Vec Ideal S1x1536 .f32)
    (n : Fin 1024) (d : Fin 512) :
    k0_pay6 (F := Ideal) x0 W B (ix2 n d) = linc (tokens x0) (fusedW W) (fusedB B) 2 n d := by
  unfold k0_pay6
  rw [truncf_apply]
  exact part_apply 2 1024 rfl _ x0 W B n d

/-- The agents: the averaging matrix times the queries. -/
theorem pay7_apply (x0 : Vec Ideal S1x1024x512 .bf16) (W : Vec Ideal S512x1536 .bf16) (B : Vec Ideal S1x1536 .f32)
    (Pm : Vec Ideal S16x1024 .bf16) (m : Fin 16) (c : Fin 512) :
    k0_pay7 (F := Ideal) x0 W B Pm (ix2 m c)
      = poolM (avgM Pm) (linc (tokens x0) (fusedW W) (fusedB B) 0) m c := by
  unfold k0_pay7
  rw [truncf_apply, Cert.PlainDot.matmul_zero_ix2 dot_S16x1024_S1024x512_S16x512_1_0_0_1_n_n rfl, shapeCast_self]
  exact Finset.sum_congr rfl fun n _ => congrArg (Pm (ix2 m n) * ·) (pay5_apply x0 W B n c)

/-- The exponential of a vector at an index. -/
theorem exp_apply {s : Shape} {φ : FTy} (a : FVec Ideal s φ) (i : s.Idx) : exp a i = Ideal.exp (a i) := rfl

/-- A softmax along the rows of a matrix, as the body spells it — the row maximum seeded with `-∞` and joined with
    `-∞`, carried back over the row; the exponentials of the differences; their row sum carried back; the quotient —
    is `smax` of the row. -/
theorem softmax_rows {a b : ℕ} (v : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (i : Fin a) (j : Fin b) :
    divf
        (exp (subf v (broadcastTo ⟨2, ![a, b]⟩ (shapeCast ⟨2, ![a, 1]⟩
          (maximumf (broadcast ⟨1, ![a]⟩ (Scalar.ofBits (F := Ideal) .f32 0xFF800000#32))
            (multiReduction (F := Ideal) .maximumf [1] ⟨1, ![a]⟩ v 0xFF800000#32 hr (.inl rfl) rfl)) hc) hb)))
        (broadcastTo ⟨2, ![a, b]⟩ (shapeCast ⟨2, ![a, 1]⟩
          (multiReduction (F := Ideal) .add [1] ⟨1, ![a]⟩
            (exp (subf v (broadcastTo ⟨2, ![a, b]⟩ (shapeCast ⟨2, ![a, 1]⟩
              (maximumf (broadcast ⟨1, ![a]⟩ (Scalar.ofBits (F := Ideal) .f32 0xFF800000#32))
                (multiReduction (F := Ideal) .maximumf [1] ⟨1, ![a]⟩ v 0xFF800000#32 hr (.inl rfl) rfl)) hc) hb)))
            0x00000000#32 hr (.inl rfl) rfl) hc) hb)
        (ix2 i j)
      = smax (fun k => v (ix2 i k)) j := by
  have hmax : ∀ k : Fin b,
      broadcastTo ⟨2, ![a, b]⟩ (shapeCast ⟨2, ![a, 1]⟩
          (maximumf (broadcast ⟨1, ![a]⟩ (Scalar.ofBits (F := Ideal) .f32 0xFF800000#32))
            (multiReduction (F := Ideal) .maximumf [1] ⟨1, ![a]⟩ v 0xFF800000#32 hr (.inl rfl) rfl)) hc) hb (ix2 i k)
        = rowMax (fun k => v (ix2 i k)) := fun k =>
    (Cert.LibKeepdims.broadcastTo_a1_ab_apply _ hb i k).trans
      ((Cert.LibKeepdims.shapeCast_a_a1_apply _ hc i 0).trans
        (congrArg (max ninf) (Cert.LibRank3.max_last2 v 0xFF800000#32 hr (.inl rfl) rfl i)))
  have hexp : ∀ k : Fin b,
      exp (subf v (broadcastTo ⟨2, ![a, b]⟩ (shapeCast ⟨2, ![a, 1]⟩
          (maximumf (broadcast ⟨1, ![a]⟩ (Scalar.ofBits (F := Ideal) .f32 0xFF800000#32))
            (multiReduction (F := Ideal) .maximumf [1] ⟨1, ![a]⟩ v 0xFF800000#32 hr (.inl rfl) rfl)) hc) hb)) (ix2 i k)
        = Ideal.exp (v (ix2 i k) - rowMax (fun k => v (ix2 i k))) := fun k =>
    congrArg (fun t => Ideal.exp (v (ix2 i k) - t)) (hmax k)
  rw [divf_apply]
  unfold smax
  exact congrArg₂ Ideal.div (hexp j)
    ((Cert.LibKeepdims.broadcastTo_a1_ab_apply _ hb i j).trans
      ((Cert.LibKeepdims.shapeCast_a_a1_apply _ hc i 0).trans
        ((Cert.LibRank3.sum_last2 _ 0x00000000#32 hr (.inl rfl) rfl i).trans (Finset.sum_congr rfl fun k _ => hexp k))))

/-- The scale's word, as the body's scalar constant. -/
theorem scale_word : Scalar.ofBits (F := Ideal) .f32 0x3D3504F3#32 = sc := rfl

/-- The token weights: the softmax over the sixteen agents of a token's scaled scores. -/
theorem pay8_apply (x0 : Vec Ideal S1x1024x512 .bf16) (W : Vec Ideal S512x1536 .bf16) (B : Vec Ideal S1x1536 .f32)
    (Pm : Vec Ideal S16x1024 .bf16) (n : Fin 1024) (m : Fin 16) :
    k0_pay8 (F := Ideal) x0 W B Pm (ix2 n m)
      = smax (score (linc (tokens x0) (fusedW W) (fusedB B) 0)
          (poolM (avgM Pm) (linc (tokens x0) (fusedW W) (fusedB B) 0)) n) m := by
  unfold k0_pay8
  refine (softmax_rows _ reduces_S1024x16_S1024 shapeCasts_S1024_S1024x1 broadcasts_S1024x1_S1024x16 n m).trans ?_
  refine congrArg (smax · m) (funext fun k => ?_)
  rw [mulf_apply, broadcast_apply, scale_word,
    Cert.TransposedDot.matmul_zero_ix2 dot_S1024x512_S16x512_S1024x16_1_1_0_0_n_n rfl]
  refine congrArg (· * sc) (Finset.sum_congr rfl fun c _ => ?_)
  rw [pay5_apply, pay7_apply]

/-- The agents' raw scores against the keys. -/
theorem pay9_apply (x0 : Vec Ideal S1x1024x512 .bf16) (W : Vec Ideal S512x1536 .bf16) (B : Vec Ideal S1x1536 .f32)
    (Pm : Vec Ideal S16x1024 .bf16) (m : Fin 16) (n : Fin 1024) :
    k0_pay9 (F := Ideal) x0 W B Pm (ix2 m n)
      = ∑ c : Fin 512, poolM (avgM Pm) (linc (tokens x0) (fusedW W) (fusedB B) 0) m c
          * linc (tokens x0) (fusedW W) (fusedB B) 1 n c := by
  unfold k0_pay9
  rw [Cert.TransposedDot.matmul_zero_ix2 dot_S16x512_S1024x512_S16x1024_1_1_0_0_n_n rfl]
  refine Finset.sum_congr rfl fun c _ => ?_
  rw [pay7_apply, truncf_apply, part_apply 1 512 rfl]

/-- The body's last stage over any operands: each agent's softmax over the tokens of its scaled scores gathers the
    values and passes through the output weights; a token mixes the sixteen results by its weights and adds the bias. -/
theorem pay1_apply (wo : FVec Ideal S512x512 .bf16) (bo : FVec Ideal S1x512 .f32) (vals : FVec Ideal S1024x512 .bf16)
    (tw : FVec Ideal S1024x16 .f32) (raw : FVec Ideal S16x1024 .f32) (n : Fin 1024) (d : Fin 512) :
    k0_pay1 (F := Ideal) wo bo vals tw raw (ix3 (0 : Fin 1) n d)
      = (∑ m : Fin 16, tw (ix2 n m) * ∑ c : Fin 512,
          (∑ n' : Fin 1024, smax (fun k => raw (ix2 m k) * sc) n' * vals (ix2 n' c)) * wo (ix2 c d))
        + bo (ix2 (0 : Fin 1) d) := by
  unfold k0_pay1
  rw [shapeCast_ab_1ab_apply, addf_apply, Cert.LibRowBroadcast.broadcastTo_1b_ab_apply,
    Cert.PlainDot.matmul_zero_ix2 dot_S1024x16_S16x512_S1024x512_1_0_0_1_n_n rfl]
  refine congrArg (· + bo (ix2 (0 : Fin 1) d)) (Finset.sum_congr rfl fun m _ => ?_)
  rw [truncf_apply, truncf_apply, Cert.PlainDot.matmul_zero_ix2 dot_S16x512_S512x512_S16x512_1_0_0_1_n_n rfl]
  refine congrArg (tw (ix2 n m) * ·) (Finset.sum_congr rfl fun c _ => ?_)
  rw [truncf_apply, Cert.PlainDot.matmul_zero_ix2 dot_S16x1024_S1024x512_S16x512_1_0_0_1_n_n rfl]
  refine congrArg (· * wo (ix2 c d)) (Finset.sum_congr rfl fun n' _ => ?_)
  rw [truncf_apply]
  exact congrArg (· * vals (ix2 n' c))
    (softmax_rows _ reduces_S16x1024_S16 shapeCasts_S16_S16x1 broadcasts_S16x1_S16x1024 m n')

end Stages

/-- The body's result at token `n`, channel `d`, is `outKraw` of the argument arrays. -/
theorem pay_apply [Cert.KernelIdeal.Facts] (x0 : Vec Ideal S1x1024x512 .bf16) (W : Vec Ideal S512x1536 .bf16) (B : Vec Ideal S1x1536 .f32) (Wo : Vec Ideal S512x512 .bf16) (Bo : Vec Ideal S1x512 .f32) (Pm : Vec Ideal S16x1024 .bf16) (n : Fin 1024) (d : Fin 512) :
      k0_pay1 (F := Ideal) (k0_pay2 Wo) (k0_pay3 Bo) (k0_pay6 x0 W B) (k0_pay8 x0 W B Pm) (k0_pay9 x0 W B Pm) (ix3 (0 : Fin 1) n d)
        = Cert.Attn.outKraw (fun n c => x0 (ix3 (0 : Fin 1) n c)) (fun c j => W (ix2 c j)) (fun j => B (ix2 (0 : Fin 1) j)) (fun c d => Wo (ix2 c d)) (fun d => Bo (ix2 (0 : Fin 1) d)) (fun m n => Pm (ix2 m n)) n d := by
  rw [pay1_apply]
  unfold outKraw
  refine congrArg₂ (· + ·) (Finset.sum_congr rfl fun m _ => ?_) ?_
  · rw [pay8_apply]
    refine congrArg₂ (fun s t : EReal => s * t) rfl (Finset.sum_congr rfl fun c _ => ?_)
    unfold k0_pay2
    rw [shapeCast_self]
    refine congrArg (· * Wo (ix2 c d)) (Finset.sum_congr rfl fun n' _ => ?_)
    rw [pay6_apply]
    refine congrArg₂ (fun (s : Fin 1024 → EReal) (t : EReal) => smax s n' * t) (funext fun k => ?_) rfl
    rw [pay9_apply]
    rfl
  · unfold k0_pay3
    rw [shapeCast_self]

end Cert.Attn.KPay

end
-- ==== Proof.RefRead.lean ====
/-
  The reference program's result read at one element, on the extended reals.

  Every stage of the host program is read at explicit coordinates (batch element `b`, token `n`, agent `m`,
  channel `c` or `d`) and identified with the corresponding function of the shared mathematics of agent attention:
  the three dense layers, the agents as group means of the queries, the two softmaxes of scaled scores, what the agents
  gather from the values, the token weights applied to it, and the output layer.
-/
import proofs.«102939_j77532749627633_2_alg».proof.Proof.Gen.ReferenceIdeal.Read
import proofs.«102939_j77532749627633_2_alg».proof.Proof.Spec
import Idealize.ShloMosaic.Lib.ValueIdx
import Idealize.ShloMosaic.Lib.Pipeline.Value
import Idealize.ShloMosaic.PureOps.Ideal.Laws

noncomputable section

namespace Cert.Attn.RefRead

open Cert.ReferenceIdeal Cert.ReferenceIdeal.Read Idealize.ShloMosaic Idealize.ShloMosaic.ValueIdx

/-- Arrays of the host program over the extended reals. -/
abbrev Arr (s : Shape) := (⟨s, .f32⟩ : BufTy).Contents (Elt Ideal)

/-- Batch element `b` of the token array as a matrix of tokens by channels. -/
abbrev rows (x : Arr S64x1024x512) (b : Fin 64) : Fin 1024 → Fin 512 → EReal := fun n c => x (ix3 b n c)
/-- A weight array as a matrix. -/
abbrev mat (w : Arr S512x512) : Fin 512 → Fin 512 → EReal := fun d c => w (ix2 d c)
/-- A bias array as a vector. -/
abbrev vec (v : Arr S512) : Fin 512 → EReal := fun d => v (ix1 d)

/-! ## The three dense layers -/

/-- The queries: token `n` of batch element `b` through the first dense layer. -/
theorem q_apply (x0 : Arr S64x1024x512) (x1 : Arr S512x512) (x2 : Arr S512) (b : Fin 64) (n : Fin 1024) (d : Fin 512) :
    val_main_v3 (F := Ideal) x0 x1 x2 (ix3 b n d) = lin (rows x0 b) (mat x1) (vec x2) n d := by
  have el : ∀ k : Fin 512, lidx_main_v0 (ix3 b n d) k = ix3 b n k := fun k => funext fun a => Fin.ext (by
    match a with | ⟨0, _⟩ => rfl | ⟨1, _⟩ => rfl | ⟨2, _⟩ => rfl)
  have er : ∀ k : Fin 512, ridx_main_v0 (ix3 b n d) k = ix2 d k := fun k => funext fun a => Fin.ext (by
    match a with | ⟨0, _⟩ => rfl | ⟨1, _⟩ => rfl)
  have eb : idx_main_v1 (idx_main_v2 (ix3 b n d)) = ix1 d := funext fun a => Fin.ext (by
    match a with | ⟨0, _⟩ => rfl)
  rw [val_main_v3_apply, val_main_v0_apply, val_main_v2_apply, val_main_v1_apply]
  simp only [el, er, eb, Ideal.addf_def]
  rfl

/-- The keys: the same through the second dense layer. -/
theorem k_apply (x0 : Arr S64x1024x512) (x3 : Arr S512x512) (x4 : Arr S512) (b : Fin 64) (n : Fin 1024) (d : Fin 512) :
    val_main_v7 (F := Ideal) x0 x3 x4 (ix3 b n d) = lin (rows x0 b) (mat x3) (vec x4) n d := by
  have el : ∀ k : Fin 512, lidx_main_v4 (ix3 b n d) k = ix3 b n k := fun k => funext fun a => Fin.ext (by
    match a with | ⟨0, _⟩ => rfl | ⟨1, _⟩ => rfl | ⟨2, _⟩ => rfl)
  have er : ∀ k : Fin 512, ridx_main_v4 (ix3 b n d) k = ix2 d k := fun k => funext fun a => Fin.ext (by
    match a with | ⟨0, _⟩ => rfl | ⟨1, _⟩ => rfl)
  have eb : idx_main_v5 (idx_main_v6 (ix3 b n d)) = ix1 d := funext fun a => Fin.ext (by
    match a with | ⟨0, _⟩ => rfl)
  rw [val_main_v7_apply, val_main_v4_apply, val_main_v6_apply, val_main_v5_apply]
  simp only [el, er, eb, Ideal.addf_def]
  rfl

/-- The values: the same through the third dense layer. -/
theorem v_apply (x0 : Arr S64x1024x512) (x5 : Arr S512x512) (x6 : Arr S512) (b : Fin 64) (n : Fin 1024) (d : Fin 512) :
    val_main_v11 (F := Ideal) x0 x5 x6 (ix3 b n d) = lin (rows x0 b) (mat x5) (vec x6) n d := by
  have el : ∀ k : Fin 512, lidx_main_v8 (ix3 b n d) k = ix3 b n k := fun k => funext fun a => Fin.ext (by
    match a with | ⟨0, _⟩ => rfl | ⟨1, _⟩ => rfl | ⟨2, _⟩ => rfl)
  have er : ∀ k : Fin 512, ridx_main_v8 (ix3 b n d) k = ix2 d k := fun k => funext fun a => Fin.ext (by
    match a with | ⟨0, _⟩ => rfl | ⟨1, _⟩ => rfl)
  have eb : idx_main_v9 (idx_main_v10 (ix3 b n d)) = ix1 d := funext fun a => Fin.ext (by
    match a with | ⟨0, _⟩ => rfl)
  rw [val_main_v11_apply, val_main_v8_apply, val_main_v10_apply, val_main_v9_apply]
  simp only [el, er, eb, Ideal.addf_def]
  rfl

/-! ## The agents -/

/-- The agents: the reshape puts token `m * 64 + g` at position `g` of group `m`, the sum runs over the group from
    zero, and the quotient by the group size gives the mean. -/
theorem agents_apply (x0 : Arr S64x1024x512) (x1 : Arr S512x512) (x2 : Arr S512) (b : Fin 64) (m : Fin 16) (c : Fin 512) :
    val_main_v15 (F := Ideal) x0 x1 x2 (ix3 b m c) = poolR (lin (rows x0 b) (mat x1) (vec x2)) m c := by
  have e : ∀ g : Fin 64, idx_main_v12 (idx_main_v13 (ix3 b m c) g) = ix3 b (tok m g) c := fun g => funext fun a => Fin.ext (by
    have hb := b.isLt; have hm := m.isLt; have hc := c.isLt; have hg := g.isLt
    match a with
    | ⟨0, _⟩ => show (((b.val * 16 + m.val) * 64 + g.val) * 512 + c.val) / 524288 = b.val; omega
    | ⟨1, _⟩ => show (((b.val * 16 + m.val) * 64 + g.val) * 512 + c.val) / 512 % 1024 = m.val * 64 + g.val; omega
    | ⟨2, _⟩ => show (((b.val * 16 + m.val) * 64 + g.val) * 512 + c.val) % 512 = c.val; omega)
  rw [val_main_v15_apply, val_main_v13_apply, val_main_v14_apply, val_main_cst_0_apply, val_main_cst_apply]
  simp only [val_main_v12_apply, e, q_apply, Ideal.hostDivf_def, Ideal.ofBits_def, Ideal.ofBits_zero_f32, zero_add]
  rfl

/-! ## A row maximum of the host program -/

/-- Over a row-and-lane index `(i, j)`, putting lane `k` back gives `(i, j, k)`. -/
theorem lift_last {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext e; apply Fin.ext
  fin_cases e <;> rfl

/-- A maximum reduction over the last of three axes, seeded with one word, is at `(i, j)` the maximum over the lane
    of the operand's elements `(i, j, k)` from that word. -/
theorem hostMax_last {a b c : ℕ} (x : (⟨3, ![a, b, c]⟩ : Shape).Idx → EReal) (init : S_.Idx → EReal)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < S_.numel) (i : Fin a) (j : Fin b) :
    Host.reduce (FloatOps.maximumf (F := Ideal) (φ := .f32)) x init h' hu (ix2 i j)
      = (Finset.univ : Finset (Fin c)).fold max (init (Shape.Idx.first hu)) (fun k => x (ix3 i j k)) := by
  rw [Host.reduce_eq_fold_single (FloatOps.maximumf (F := Ideal) (φ := .f32)) x init h' h hu]
  have hf : (x ∘ h.lift (ix2 i j)) = fun k : Fin c => x (ix3 i j k) := funext fun k => congrArg x (lift_last h i j k)
  exact congrArg (fun f => Finset.fold max (init (Shape.Idx.first hu)) f (Finset.univ : Finset (Fin c))) hf

/-! ## Every token attends to the agents -/

section TokenWeights
variable (x0 : Arr S64x1024x512) (x1 : Arr S512x512) (x2 : Arr S512) (b : Fin 64)

/-- The scaled scores of token `n` against the agents. -/
theorem tokScore_apply (n : Fin 1024) (m : Fin 16) :
    val_main_v18 (F := Ideal) x0 x1 x2 (ix3 b n m)
      = score (lin (rows x0 b) (mat x1) (vec x2)) (poolR (lin (rows x0 b) (mat x1) (vec x2))) n m := by
  have el : ∀ k : Fin 512, lidx_main_v16 (ix3 b n m) k = ix3 b n k := fun k => funext fun a => Fin.ext (by
    match a with | ⟨0, _⟩ => rfl | ⟨1, _⟩ => rfl | ⟨2, _⟩ => rfl)
  have er : ∀ k : Fin 512, ridx_main_v16 (ix3 b n m) k = ix3 b m k := fun k => funext fun a => Fin.ext (by
    match a with | ⟨0, _⟩ => rfl | ⟨1, _⟩ => rfl | ⟨2, _⟩ => rfl)
  rw [val_main_v18_apply, val_main_v16_apply, val_main_v17_apply, val_main_cst_1_apply]
  simp only [el, er, q_apply, agents_apply, Ideal.mulf_def, Ideal.ofBits_def]
  rfl

/-- The maximum of token `n`'s scores, as the softmax takes it. -/
theorem tokMax_apply (n : Fin 1024) :
    val_main_v21 (F := Ideal) x0 x1 x2 (ix2 b n)
      = rowMax (score (lin (rows x0 b) (mat x1) (vec x2)) (poolR (lin (rows x0 b) (mat x1) (vec x2))) n) := by
  rw [val_main_v21_apply, val_main_v20_apply, val_main_cst_3_apply]
  unfold val_main_v19
  rw [hostMax_last _ _ _ (by decide) _ b n]
  simp only [tokScore_apply, val_main_cst_2_apply, Ideal.maximumf_def, Ideal.ofBits_def]
  rfl

/-- The exponential of token `n`'s score against agent `m` less the row's maximum. -/
theorem tokExp_apply (n : Fin 1024) (m : Fin 16) :
    val_main_v25 (F := Ideal) x0 x1 x2 (ix3 b n m)
      = Ideal.exp (score (lin (rows x0 b) (mat x1) (vec x2)) (poolR (lin (rows x0 b) (mat x1) (vec x2))) n m
          - rowMax (score (lin (rows x0 b) (mat x1) (vec x2)) (poolR (lin (rows x0 b) (mat x1) (vec x2))) n)) := by
  have e : idx_main_v22 (idx_main_v23 (ix3 b n m)) = ix2 b n := funext fun a => Fin.ext (by
    match a with | ⟨0, _⟩ => rfl | ⟨1, _⟩ => rfl)
  rw [val_main_v25_apply, val_main_v24_apply, val_main_v23_apply, val_main_v22_apply, e, tokMax_apply, tokScore_apply]
  simp only [Ideal.hostUnary_exp_def, Ideal.subf_def]

/-- The token weights: the softmax of token `n`'s scores over the sixteen agents. -/
theorem tokw_apply (n : Fin 1024) (m : Fin 16) :
    val_main_v29 (F := Ideal) x0 x1 x2 (ix3 b n m)
      = smax (score (lin (rows x0 b) (mat x1) (vec x2)) (poolR (lin (rows x0 b) (mat x1) (vec x2))) n) m := by
  have e : idx_main_v27 (idx_main_v28 (ix3 b n m)) = ix2 b n := funext fun a => Fin.ext (by
    match a with | ⟨0, _⟩ => rfl | ⟨1, _⟩ => rfl)
  have ek : ∀ k : Fin 16, idx_main_v26 (ix2 b n) k = ix3 b n k := fun k => funext fun a => Fin.ext (by
    match a with | ⟨0, _⟩ => rfl | ⟨1, _⟩ => rfl | ⟨2, _⟩ => rfl)
  rw [val_main_v29_apply, val_main_v28_apply, val_main_v27_apply, e, val_main_v26_apply, val_main_cst_4_apply]
  simp only [ek, tokExp_apply, Ideal.hostDivf_def, Ideal.ofBits_def, Ideal.ofBits_zero_f32, zero_add]
  rfl

end TokenWeights

/-! ## Every agent attends to the tokens' keys -/

section AgentWeights
variable (x0 : Arr S64x1024x512) (x1 : Arr S512x512) (x2 : Arr S512) (x3 : Arr S512x512) (x4 : Arr S512) (b : Fin 64)

/-- The scaled scores of agent `m` against the keys. -/
theorem agScore_apply (m : Fin 16) (n : Fin 1024) :
    val_main_v32 (F := Ideal) x0 x1 x2 x3 x4 (ix3 b m n) = score (poolR (lin (rows x0 b) (mat x1) (vec x2))) (lin (rows x0 b) (mat x3) (vec x4)) m n := by
  have el : ∀ k : Fin 512, lidx_main_v30 (ix3 b m n) k = ix3 b m k := fun k => funext fun a => Fin.ext (by
    match a with | ⟨0, _⟩ => rfl | ⟨1, _⟩ => rfl | ⟨2, _⟩ => rfl)
  have er : ∀ k : Fin 512, ridx_main_v30 (ix3 b m n) k = ix3 b n k := fun k => funext fun a => Fin.ext (by
    match a with | ⟨0, _⟩ => rfl | ⟨1, _⟩ => rfl | ⟨2, _⟩ => rfl)
  rw [val_main_v32_apply, val_main_v30_apply, val_main_v31_apply, val_main_cst_5_apply]
  simp only [el, er, k_apply, agents_apply, Ideal.mulf_def, Ideal.ofBits_def]
  rfl

/-- The maximum of agent `m`'s scores, as the softmax takes it. -/
theorem agMax_apply (m : Fin 16) :
    val_main_v35 (F := Ideal) x0 x1 x2 x3 x4 (ix2 b m) = rowMax (score (poolR (lin (rows x0 b) (mat x1) (vec x2))) (lin (rows x0 b) (mat x3) (vec x4)) m) := by
  rw [val_main_v35_apply, val_main_v34_apply, val_main_cst_7_apply]
  unfold val_main_v33
  rw [hostMax_last _ _ _ (by decide) _ b m]
  simp only [agScore_apply, val_main_cst_6_apply, Ideal.maximumf_def, Ideal.ofBits_def]
  rfl

/-- The exponential of agent `m`'s score against token `n` less the row's maximum. -/
theorem agExp_apply (m : Fin 16) (n : Fin 1024) :
    val_main_v39 (F := Ideal) x0 x1 x2 x3 x4 (ix3 b m n)
      = Ideal.exp (score (poolR (lin (rows x0 b) (mat x1) (vec x2))) (lin (rows x0 b) (mat x3) (vec x4)) m n - rowMax (score (poolR (lin (rows x0 b) (mat x1) (vec x2))) (lin (rows x0 b) (mat x3) (vec x4)) m)) := by
  have e : idx_main_v36 (idx_main_v37 (ix3 b m n)) = ix2 b m := funext fun a => Fin.ext (by
    match a with | ⟨0, _⟩ => rfl | ⟨1, _⟩ => rfl)
  rw [val_main_v39_apply, val_main_v38_apply, val_main_v37_apply, val_main_v36_apply, e, agMax_apply, agScore_apply]
  simp only [Ideal.hostUnary_exp_def, Ideal.subf_def]

/-- The agent weights: the softmax of agent `m`'s scores over the 1024 tokens. -/
theorem agw_apply (m : Fin 16) (n : Fin 1024) :
    val_main_v43 (F := Ideal) x0 x1 x2 x3 x4 (ix3 b m n) = smax (score (poolR (lin (rows x0 b) (mat x1) (vec x2))) (lin (rows x0 b) (mat x3) (vec x4)) m) n := by
  have e : idx_main_v41 (idx_main_v42 (ix3 b m n)) = ix2 b m := funext fun a => Fin.ext (by
    match a with | ⟨0, _⟩ => rfl | ⟨1, _⟩ => rfl)
  have ek : ∀ k : Fin 1024, idx_main_v40 (ix2 b m) k = ix3 b m k := fun k => funext fun a => Fin.ext (by
    match a with | ⟨0, _⟩ => rfl | ⟨1, _⟩ => rfl | ⟨2, _⟩ => rfl)
  rw [val_main_v43_apply, val_main_v42_apply, val_main_v41_apply, e, val_main_v40_apply, val_main_cst_8_apply]
  simp only [ek, agExp_apply, Ideal.hostDivf_def, Ideal.ofBits_def, Ideal.ofBits_zero_f32, zero_add]
  rfl

end AgentWeights

/-! ## What the agents gather, the token weights applied to it, and the output layer -/

section Output
variable (x0 : Arr S64x1024x512) (x1 : Arr S512x512) (x2 : Arr S512) (x3 : Arr S512x512) (x4 : Arr S512)
  (x5 : Arr S512x512) (x6 : Arr S512) (x7 : Arr S512x512) (x8 : Arr S512) (b : Fin 64)

/-- What agent `m` gathers from the values, channel `c`. -/
theorem gather_apply (m : Fin 16) (c : Fin 512) :
    val_main_v44 (F := Ideal) x0 x1 x2 x3 x4 x5 x6 (ix3 b m c) = gather (fun m => smax (score (poolR (lin (rows x0 b) (mat x1) (vec x2))) (lin (rows x0 b) (mat x3) (vec x4)) m)) (lin (rows x0 b) (mat x5) (vec x6)) m c := by
  have el : ∀ k : Fin 1024, lidx_main_v44 (ix3 b m c) k = ix3 b m k := fun k => funext fun a => Fin.ext (by
    match a with | ⟨0, _⟩ => rfl | ⟨1, _⟩ => rfl | ⟨2, _⟩ => rfl)
  have er : ∀ k : Fin 1024, ridx_main_v44 (ix3 b m c) k = ix3 b k c := fun k => funext fun a => Fin.ext (by
    match a with | ⟨0, _⟩ => rfl | ⟨1, _⟩ => rfl | ⟨2, _⟩ => rfl)
  rw [val_main_v44_apply]
  simp only [el, er, agw_apply, v_apply]
  rfl

/-- Token `n`'s weights applied to what the agents gathered, channel `c`. -/
theorem mix_apply (n : Fin 1024) (c : Fin 512) :
    val_main_v45 (F := Ideal) x0 x1 x2 x3 x4 x5 x6 (ix3 b n c)
      = ∑ m, smax (score (lin (rows x0 b) (mat x1) (vec x2)) (poolR (lin (rows x0 b) (mat x1) (vec x2))) n) m * gather (fun m => smax (score (poolR (lin (rows x0 b) (mat x1) (vec x2))) (lin (rows x0 b) (mat x3) (vec x4)) m)) (lin (rows x0 b) (mat x5) (vec x6)) m c := by
  have el : ∀ k : Fin 16, lidx_main_v45 (ix3 b n c) k = ix3 b n k := fun k => funext fun a => Fin.ext (by
    match a with | ⟨0, _⟩ => rfl | ⟨1, _⟩ => rfl | ⟨2, _⟩ => rfl)
  have er : ∀ k : Fin 16, ridx_main_v45 (ix3 b n c) k = ix3 b k c := fun k => funext fun a => Fin.ext (by
    match a with | ⟨0, _⟩ => rfl | ⟨1, _⟩ => rfl | ⟨2, _⟩ => rfl)
  rw [val_main_v45_apply]
  simp only [el, er, tokw_apply, gather_apply]

/-- The result: the output layer applied to the mixed rows. -/
theorem out_apply (n : Fin 1024) (d : Fin 512) :
    val_main_v49 (F := Ideal) x0 x1 x2 x3 x4 x5 x6 x7 x8 (ix3 b n d)
      = outR (rows x0 b) (mat x1) (vec x2) (mat x3) (vec x4) (mat x5) (vec x6) (mat x7) (vec x8) n d := by
  have el : ∀ k : Fin 512, lidx_main_v46 (ix3 b n d) k = ix3 b n k := fun k => funext fun a => Fin.ext (by
    match a with | ⟨0, _⟩ => rfl | ⟨1, _⟩ => rfl | ⟨2, _⟩ => rfl)
  have er : ∀ k : Fin 512, ridx_main_v46 (ix3 b n d) k = ix2 d k := fun k => funext fun a => Fin.ext (by
    match a with | ⟨0, _⟩ => rfl | ⟨1, _⟩ => rfl)
  have eb : idx_main_v47 (idx_main_v48 (ix3 b n d)) = ix1 d := funext fun a => Fin.ext (by
    match a with | ⟨0, _⟩ => rfl)
  rw [val_main_v49_apply, val_main_v46_apply, val_main_v48_apply, val_main_v47_apply]
  simp only [el, er, eb, mix_apply, Ideal.addf_def]
  rfl

end Output

/-- The reference program's result at batch element `b`, token `n`, channel `d` is the agent attention of the
    batch element's token block with the output layer applied after the token weights. -/
theorem ref_apply (x0 : (⟨S64x1024x512, .f32⟩ : BufTy).Contents (Elt Ideal)) (x1 : (⟨S512x512, .f32⟩ : BufTy).Contents (Elt Ideal))
    (x2 : (⟨S512, .f32⟩ : BufTy).Contents (Elt Ideal)) (x3 : (⟨S512x512, .f32⟩ : BufTy).Contents (Elt Ideal))
    (x4 : (⟨S512, .f32⟩ : BufTy).Contents (Elt Ideal)) (x5 : (⟨S512x512, .f32⟩ : BufTy).Contents (Elt Ideal))
    (x6 : (⟨S512, .f32⟩ : BufTy).Contents (Elt Ideal)) (x7 : (⟨S512x512, .f32⟩ : BufTy).Contents (Elt Ideal))
    (x8 : (⟨S512, .f32⟩ : BufTy).Contents (Elt Ideal)) (b : Fin 64) (n : Fin 1024) (d : Fin 512) :
    val_main_v49 (F := Ideal) x0 x1 x2 x3 x4 x5 x6 x7 x8 (ix3 b n d)
      = Cert.Attn.outR (fun n c => x0 (ix3 b n c)) (fun d c => x1 (ix2 d c)) (fun d => x2 (ix1 d)) (fun d c => x3 (ix2 d c))
          (fun d => x4 (ix1 d)) (fun d c => x5 (ix2 d c)) (fun d => x6 (ix1 d)) (fun d c => x7 (ix2 d c)) (fun d => x8 (ix1 d)) n d :=
  out_apply x0 x1 x2 x3 x4 x5 x6 x7 x8 b n d

end Cert.Attn.RefRead

end
-- ==== Proof.LibSumRegroup.lean ====
/-
  Regrouping a finite sum over a range of naturals.

  A sum over `Fin (a * b)` is a double sum: every index below `a * b` is `p * b + q` for exactly one `p < a` and
  `q < b` (division with remainder by `b`), so summing block by block, `b` consecutive indices to a block, visits
  every index once. Twice over, a sum over `Fin (a * b * c)` is a triple sum over the indices `(p * b + q) * c + r`.
  This is how a column of `500000` rows is summed tile by tile: `2000` rows to a tile, `125` tiles to a core, `2` cores.

  A sum over `Fin (a + b + c + d)` is the sum of four sums, one over each consecutive part. This is how a product
  against a matrix whose columns are four blocks side by side is the sum of four partial products.

  All statements are for an arbitrary commutative additive monoid.
-/
import Mathlib.Algebra.BigOperators.Fin
import Mathlib.Data.Fintype.BigOperators
import Mathlib.Logic.Equiv.Fin.Basic

namespace Cert.SumRegroup

variable {M : Type*} [AddCommMonoid M]

/-! ## Products of ranges: block by block -/

/-- The index `p * b + q` of the `q`-th entry of the `p`-th block of length `b` lies below `a * b`. -/
theorem mul_add_lt {a b : ℕ} (p : Fin a) (q : Fin b) : p.val * b + q.val < a * b :=
  calc p.val * b + q.val < p.val * b + b := Nat.add_lt_add_left q.isLt _
    _ = (p.val + 1) * b := (Nat.succ_mul _ _).symm
    _ ≤ a * b := Nat.mul_le_mul_right b p.isLt

/-- A sum over `Fin (a * b)` taken block by block: `a` blocks of `b` consecutive indices. -/
theorem sum_fin_mul (a b : ℕ) (f : Fin (a * b) → M) :
    ∑ i, f i = ∑ p : Fin a, ∑ q : Fin b, f ⟨p.val * b + q.val, mul_add_lt p q⟩ := by
  rw [← (finProdFinEquiv (m := a) (n := b)).sum_comp f, Fintype.sum_prod_type]
  refine Finset.sum_congr rfl fun p _ => Finset.sum_congr rfl fun q _ => congrArg f (Fin.ext ?_)
  show q.val + b * p.val = p.val * b + q.val
  rw [Nat.add_comm, Nat.mul_comm]

/-- The index `(p * b + q) * c + r` lies below `a * b * c`. -/
theorem mul_add_mul_add_lt {a b c : ℕ} (p : Fin a) (q : Fin b) (r : Fin c) :
    (p.val * b + q.val) * c + r.val < a * b * c :=
  mul_add_lt (⟨p.val * b + q.val, mul_add_lt p q⟩ : Fin (a * b)) r

/-- A sum over `Fin (a * b * c)` taken in `a` groups of `b` blocks of `c` consecutive indices. -/
theorem sum_fin_mul_mul (a b c : ℕ) (f : Fin (a * b * c) → M) :
    ∑ i, f i = ∑ p : Fin a, ∑ q : Fin b, ∑ r : Fin c,
      f ⟨(p.val * b + q.val) * c + r.val, mul_add_mul_add_lt p q r⟩ := by
  rw [sum_fin_mul (a * b) c f,
    sum_fin_mul a b fun t : Fin (a * b) => ∑ r : Fin c, f ⟨t.val * c + r.val, mul_add_lt t r⟩]

/-- A column of `500000` rows summed tile by tile: two halves of `125` tiles of `2000` rows; row
    `(cc * 125 + j) * 2000 + r` is row `r` of tile `j` of half `cc`. -/
theorem sum_rows_by_tile (f : Fin 500000 → M) :
    ∑ e, f e = ∑ cc : Fin 2, ∑ j : Fin 125, ∑ r : Fin 2000,
      f ⟨(cc.val * 125 + j.val) * 2000 + r.val, mul_add_mul_add_lt (a := 2) cc j r⟩ :=
  sum_fin_mul_mul 2 125 2000 f

/-! ## Sums of ranges: part by part -/

/-- A sum over `Fin (a + b + c + d)` is the sum of the sums over its four consecutive parts. -/
theorem sum_fin_add4 (a b c d : ℕ) (g : Fin (a + b + c + d) → M) :
    ∑ i, g i
      = (∑ i : Fin a, g ⟨i.val, by omega⟩) + (∑ i : Fin b, g ⟨a + i.val, by omega⟩)
        + (∑ i : Fin c, g ⟨a + b + i.val, by omega⟩) + (∑ i : Fin d, g ⟨a + b + c + i.val, by omega⟩) := by
  rw [Fin.sum_univ_add, Fin.sum_univ_add, Fin.sum_univ_add]
  rfl

/-- A sum over `384` columns made of four blocks side by side, of widths `128`, `128`, `64`, `64`. -/
theorem sum_cols_by_part (g : Fin 384 → M) :
    ∑ i, g i
      = (∑ i : Fin 128, g ⟨i.val, by omega⟩) + (∑ i : Fin 128, g ⟨128 + i.val, by omega⟩)
        + (∑ i : Fin 64, g ⟨256 + i.val, by omega⟩) + (∑ i : Fin 64, g ⟨320 + i.val, by omega⟩) :=
  sum_fin_add4 128 128 64 64 g

end Cert.SumRegroup
-- ==== Proof.Algebra.lean ====
/-
  The two arrangements of agent attention agree on real inputs.

  On the extended reals multiplication does not distribute over addition at the infinities, so an identity between two
  arrangements of sums of products is carried through the reals: every quantity of the attention is shown to be (the
  image of) a real number, the images are pushed outward, and the identity is concluded in the field of reals.

  Two facts make up the agreement. The agents: a product with the averaging matrix, whose entry for token n and agent m
  is [n / 64 = m] / 64, is the sum of the 64 tokens of group m divided by 64, because the 1024 tokens are 16 consecutive
  groups of 64 and a group other than m contributes zeros. The output layer: weighting the projected agent rows is
  projecting the weighted agent rows, both being the double sum of the triple products. Everything between the two (the
  scores, the softmaxes, the gathered values) is the same expression of the agents on both sides; it only has to be
  real-valued, which it is since a softmax of a nonempty row of reals divides by a sum of positive reals.
-/
import proofs.«102939_j77532749627633_2_alg».proof.Proof.Spec
import proofs.«102939_j77532749627633_2_alg».proof.Proof.LibSumRegroup
import Mathlib

noncomputable section

namespace Cert.Attn

open Idealize.ShloMosaic

/-! ## Extended reals that are real numbers -/

/-- An extended real that is (the image of) a real number. -/
def IsR (x : EReal) : Prop := ∃ r : ℝ, x = (r : EReal)

theorem IsR.coe (r : ℝ) : IsR (r : EReal) := ⟨r, rfl⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

/-- The greater of two reals is one of them. -/
theorem IsR.max {x y : EReal} (hx : IsR x) (hy : IsR y) : IsR (max x y) := by
  rcases le_total x y with h | h
  · rw [max_eq_right h]; exact hy
  · rw [max_eq_left h]; exact hx

/-- A finite sum of reals is a real. -/
theorem IsR.sum {ι : Type*} (s : Finset ι) (f : ι → EReal) (h : ∀ i ∈ s, IsR (f i)) : IsR (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The image of a finite sum of reals is the sum of the images. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The three printed words -/

theorem c64_eq : c64 = ((64 : ℝ) : EReal) := by
  unfold c64; simp [Ideal.ofBits, Ideal.ieee, -EReal.coe_mul]; norm_num

theorem ninf_eq : ninf = ⊥ := by
  unfold ninf; simp [Ideal.ofBits, Ideal.ieee]

theorem sc_isR : IsR sc := by
  unfold sc; simp [Ideal.ofBits, Ideal.ieee, -EReal.coe_mul]; exact ⟨_, rfl⟩

/-! ## Exponential, division, row maximum, softmax -/

/-- The exponential of a real is a positive real. -/
theorem exp_isR_pos {x : EReal} (hx : IsR x) : ∃ r : ℝ, 0 < r ∧ Ideal.exp x = (r : EReal) := by
  obtain ⟨a, rfl⟩ := hx; exact ⟨Real.exp a, Real.exp_pos a, rfl⟩

/-- A real divided by a real that is not zero is a real. -/
theorem div_isR {x : EReal} {y : ℝ} (hx : IsR x) (hy : y ≠ 0) : IsR (Ideal.div x (y : EReal)) := by
  rw [Ideal.div_coe hy]; exact hx.mul ⟨_, rfl⟩

/-- The maximum of a nonempty finite family of reals, started from the least extended real, is a real. -/
theorem fold_max_isR {ι : Type*} (s : Finset ι) (hs : s.Nonempty) (f : ι → EReal) (hf : ∀ i, IsR (f i)) :
    IsR (s.fold max ⊥ f) := by
  induction hs using Finset.Nonempty.cons_induction with
  | singleton a => rw [Finset.fold_singleton, max_bot_right]; exact hf a
  | cons a s ha hs ih => rw [Finset.fold_cons]; exact IsR.max (hf a) ih

theorem rowMax_isR {n : ℕ} (hn : 0 < n) (s : Fin n → EReal) (hs : ∀ j, IsR (s j)) : IsR (rowMax s) := by
  unfold rowMax
  rw [ninf_eq, max_bot_left]
  exact fold_max_isR _ ⟨⟨0, hn⟩, Finset.mem_univ _⟩ s hs

/-- The softmax of a nonempty row of reals is a row of reals: its denominator is a sum of positive reals. -/
theorem smax_isR {n : ℕ} (hn : 0 < n) (s : Fin n → EReal) (hs : ∀ j, IsR (s j)) (j : Fin n) : IsR (smax s j) := by
  unfold smax
  have hm := rowMax_isR hn s hs
  have he : ∀ k, ∃ r : ℝ, 0 < r ∧ Ideal.exp (s k - rowMax s) = (r : EReal) := fun k => exp_isR_pos ((hs k).sub hm)
  choose e hepos he using he
  simp only [he]
  rw [← coe_sum]
  exact div_isR ⟨_, rfl⟩ (ne_of_gt (Finset.sum_pos (fun k _ => hepos k) ⟨⟨0, hn⟩, Finset.mem_univ _⟩))

/-! ## The layers of the attention are real-valued on real inputs -/

variable {N C D : ℕ}

theorem lin_isR (X : Fin N → Fin C → EReal) (W : Fin D → Fin C → EReal) (b : Fin D → EReal)
    (hX : ∀ n c, IsR (X n c)) (hW : ∀ d c, IsR (W d c)) (hb : ∀ d, IsR (b d)) (n : Fin N) (d : Fin D) :
    IsR (lin X W b n d) :=
  (IsR.sum _ _ fun c _ => (hX n c).mul (hW d c)).add (hb d)

theorem score_isR {I J : ℕ} (P : Fin I → Fin C → EReal) (R : Fin J → Fin C → EReal)
    (hP : ∀ i c, IsR (P i c)) (hR : ∀ j c, IsR (R j c)) (i : Fin I) (j : Fin J) : IsR (score P R i j) :=
  (IsR.sum _ _ fun c _ => (hP i c).mul (hR j c)).mul sc_isR

theorem gather_isR (U : Fin 16 → Fin 1024 → EReal) (V : Fin 1024 → Fin 512 → EReal)
    (hU : ∀ m n, IsR (U m n)) (hV : ∀ n c, IsR (V n c)) (m : Fin 16) (c : Fin 512) : IsR (gather U V m c) :=
  IsR.sum _ _ fun n _ => (hU m n).mul (hV n c)

theorem poolR_isR (Q : Fin 1024 → Fin 512 → EReal) (hQ : ∀ n c, IsR (Q n c)) (m : Fin 16) (c : Fin 512) :
    IsR (poolR Q m c) := by
  unfold poolR
  rw [c64_eq]
  exact div_isR (IsR.sum _ _ fun g _ => hQ _ c) (by norm_num)

/-! ## The two ways of forming the agents -/

/-- Over the reals: the product with the averaging matrix is the group sum over 64. The 1024 tokens are visited
    group by group; a token of group p has indicator [p = m], so only group m contributes. -/
theorem pool_real (q : Fin 1024 → ℝ) (m : Fin 16) :
    ∑ n : Fin 1024, (if n.val / 64 = m.val then (1 : ℝ) else 0) * (1 / 64 : ℝ) * q n
      = (∑ g : Fin 64, q (tok m g)) * (1 / 64 : ℝ) := by
  refine (Cert.SumRegroup.sum_fin_mul 16 64
    (fun n : Fin 1024 => (if n.val / 64 = m.val then (1 : ℝ) else 0) * (1 / 64 : ℝ) * q n)).trans ?_
  rw [Finset.sum_eq_single m]
  · have hm : ∀ g : Fin 64, (m.val * 64 + g.val) / 64 = m.val := fun g => by have := g.isLt; omega
    simp only [hm, if_true, one_mul]
    rw [Finset.sum_mul]
    refine Finset.sum_congr rfl fun g _ => ?_
    unfold tok
    ring
  · intro p _ hp
    have hpm : ∀ g : Fin 64, ¬ (p.val * 64 + g.val) / 64 = m.val := fun g => by
      have := g.isLt
      have : p.val ≠ m.val := fun h => hp (Fin.ext h)
      omega
    simp only [hpm, if_false, zero_mul, Finset.sum_const_zero]
  · intro h; exact absurd (Finset.mem_univ m) h

theorem poolK_eq_poolR (Q : Fin 1024 → Fin 512 → EReal) (hQ : ∀ n c, IsR (Q n c)) : poolK Q = poolR Q := by
  funext m c
  choose q hq using hQ
  unfold poolK poolR
  rw [c64_eq]
  have hone : ∀ n : Fin 1024, onehot n m = (((if n.val / 64 = m.val then 1 else 0 : ℝ)) : EReal) := by
    intro n; unfold onehot; split_ifs <;> simp
  simp only [Ideal.div_coe (show (64 : ℝ) ≠ 0 by norm_num), hq, hone, ← EReal.coe_mul, ← coe_sum]
  exact congrArg _ (pool_real (fun n => q n c) m)

/-! ## Applying the output layer before or after the token weights -/

/-- For real weights, real gathered rows and a real output row, weighting the projected rows is projecting the
    weighted rows: both are the double sum of the triple products. -/
theorem sum_mul_sum_reassoc {a b : ℕ} (T : Fin a → EReal) (G : Fin a → Fin b → EReal) (W : Fin b → EReal)
    (hT : ∀ m, IsR (T m)) (hG : ∀ m c, IsR (G m c)) (hW : ∀ c, IsR (W c)) :
    ∑ m, T m * ∑ c, G m c * W c = ∑ c, (∑ m, T m * G m c) * W c := by
  choose t ht using hT
  choose g hg using hG
  choose w hw using hW
  simp only [ht, hg, hw, ← EReal.coe_mul, ← coe_sum]
  refine congrArg _ ?_
  simp only [Finset.mul_sum, Finset.sum_mul]
  rw [Finset.sum_comm]
  refine Finset.sum_congr rfl fun c _ => Finset.sum_congr rfl fun m _ => ?_
  ring

/-- The two arrangements of agent attention agree on real inputs. -/
theorem outK_eq_outR (X : Fin 1024 → Fin 512 → EReal) (Wq : Fin 512 → Fin 512 → EReal) (bq : Fin 512 → EReal) (Wk : Fin 512 → Fin 512 → EReal) (bk : Fin 512 → EReal) (Wv : Fin 512 → Fin 512 → EReal) (bv : Fin 512 → EReal) (Wo : Fin 512 → Fin 512 → EReal) (bo : Fin 512 → EReal)
    (hX : ∀ n c, ∃ r : ℝ, X n c = (r : EReal)) (hWq : ∀ d c, ∃ r : ℝ, Wq d c = (r : EReal)) (hbq : ∀ d, ∃ r : ℝ, bq d = (r : EReal)) (hWk : ∀ d c, ∃ r : ℝ, Wk d c = (r : EReal)) (hbk : ∀ d, ∃ r : ℝ, bk d = (r : EReal)) (hWv : ∀ d c, ∃ r : ℝ, Wv d c = (r : EReal)) (hbv : ∀ d, ∃ r : ℝ, bv d = (r : EReal)) (hWo : ∀ d c, ∃ r : ℝ, Wo d c = (r : EReal)) (hbo : ∀ d, ∃ r : ℝ, bo d = (r : EReal)) (n : Fin 1024) (d : Fin 512) :
    outK X Wq bq Wk bk Wv bv Wo bo n d = outR X Wq bq Wk bk Wv bv Wo bo n d := by
  have hQ : ∀ n c, IsR (lin X Wq bq n c) := lin_isR X Wq bq hX hWq hbq
  have hK : ∀ n c, IsR (lin X Wk bk n c) := lin_isR X Wk bk hX hWk hbk
  have hV : ∀ n c, IsR (lin X Wv bv n c) := lin_isR X Wv bv hX hWv hbv
  have hP : ∀ m c, IsR (poolR (lin X Wq bq) m c) := poolR_isR _ hQ
  unfold outK outR
  rw [poolK_eq_poolR _ hQ]
  refine congrArg (· + bo d) ?_
  exact sum_mul_sum_reassoc
    (smax (score (lin X Wq bq) (poolR (lin X Wq bq)) n))
    (gather (fun m => smax (score (poolR (lin X Wq bq)) (lin X Wk bk) m)) (lin X Wv bv))
    (Wo d)
    (smax_isR (by norm_num) _ fun m => score_isR _ _ hQ hP n m)
    (gather_isR _ _ (fun m k => smax_isR (by norm_num) _ (fun j => score_isR _ _ hP hK m j) k) hV)
    (hWo d)

end Cert.Attn

end
-- ==== Proof.SpecBridge.lean ====
/-
  The fused, transposed arrangement of agent attention is the plain one.

  When the fused weight matrix `[512, 1536]` holds the three transposed weight matrices side by side, the fused
  bias the three biases end to end, the output weights are given transposed, and the averaging matrix has entries
  `[n / 64 = m] / 64`, then `outKraw` over them is `outK` over the plain operands: each fused layer read at part
  `p` is that part's dense layer, and the product with the averaging matrix is `poolK`.
-/
import proofs.«102939_j77532749627633_2_alg».proof.Proof.Spec

noncomputable section

namespace Cert.Attn

open Idealize.ShloMosaic

theorem outKraw_eq_outK (X : Fin 1024 → Fin 512 → EReal) (Wc : Fin 512 → Fin 1536 → EReal) (Bc : Fin 1536 → EReal)
    (WoT : Fin 512 → Fin 512 → EReal) (bo : Fin 512 → EReal) (Pm : Fin 16 → Fin 1024 → EReal)
    (Wq : Fin 512 → Fin 512 → EReal) (bq : Fin 512 → EReal) (Wk : Fin 512 → Fin 512 → EReal) (bk : Fin 512 → EReal)
    (Wv : Fin 512 → Fin 512 → EReal) (bv : Fin 512 → EReal) (Wo : Fin 512 → Fin 512 → EReal)
    (hq : ∀ c d, Wc c (col 0 d) = Wq d c) (hk : ∀ c d, Wc c (col 1 d) = Wk d c) (hv : ∀ c d, Wc c (col 2 d) = Wv d c)
    (hbq : ∀ d, Bc (col 0 d) = bq d) (hbk : ∀ d, Bc (col 1 d) = bk d) (hbv : ∀ d, Bc (col 2 d) = bv d)
    (hwo : ∀ c d, WoT c d = Wo d c) (hP : ∀ a n, Pm a n = Ideal.div (onehot n a) c64) :
    outKraw X Wc Bc WoT bo Pm = outK X Wq bq Wk bk Wv bv Wo bo := by
  have e0 : linc X Wc Bc 0 = lin X Wq bq := by
    funext n d; unfold linc lin; simp only [hq, hbq]
  have e1 : linc X Wc Bc 1 = lin X Wk bk := by
    funext n d; unfold linc lin; simp only [hk, hbk]
  have e2 : linc X Wc Bc 2 = lin X Wv bv := by
    funext n d; unfold linc lin; simp only [hv, hbv]
  have eP : poolM Pm = poolK := by
    funext Q a c; unfold poolM poolK; simp only [hP]
  funext n d
  unfold outKraw outK
  simp only [e0, e1, e2, eP, hwo]

end Cert.Attn

end
-- ==== Proof.Bridge.lean ====
/-
  The two programs' results are one function of the arguments.

  Entry `(b, n, d)` of either result depends on batch row `b` of the activations and on the four dense layers. The
  reference computes agent attention with the agents as group means and the output layer applied last; the kernel
  computes it from fused, transposed operands with the agents as a product with the averaging matrix and the output
  layer applied to the sixteen agent rows first. On finite inputs the two agree: a mean is the product with the
  averaging matrix, and a product of three finite matrices may be bracketed either way.
-/
import proofs.«102939_j77532749627633_2_alg».proof.Proof.KValue
import proofs.«102939_j77532749627633_2_alg».proof.Proof.KPay
import proofs.«102939_j77532749627633_2_alg».proof.Proof.RefRead
import proofs.«102939_j77532749627633_2_alg».proof.Proof.Algebra
import proofs.«102939_j77532749627633_2_alg».proof.Proof.SpecBridge

set_option maxRecDepth 16384

noncomputable section

namespace Cert.Attn.Bridge

open Idealize.ShloMosaic Idealize.ShloMosaic.TcCoe Idealize.ShloMosaic.ValueIdx Idealize.SL.Sem

/-- The common result: at `(b, n, d)`, agent attention of batch row `b`, in the reference's arrangement. -/
def G (x : (⟨3, ![64, 1024, 512]⟩ : Shape).Idx → EReal) (wq : (⟨2, ![512, 512]⟩ : Shape).Idx → EReal)
    (bq : (⟨1, ![512]⟩ : Shape).Idx → EReal) (wk : (⟨2, ![512, 512]⟩ : Shape).Idx → EReal)
    (bk : (⟨1, ![512]⟩ : Shape).Idx → EReal) (wv : (⟨2, ![512, 512]⟩ : Shape).Idx → EReal)
    (bv : (⟨1, ![512]⟩ : Shape).Idx → EReal) (wo : (⟨2, ![512, 512]⟩ : Shape).Idx → EReal)
    (bo : (⟨1, ![512]⟩ : Shape).Idx → EReal) : (⟨3, ![64, 1024, 512]⟩ : Shape).Idx → EReal :=
  fun i => Cert.Attn.outR (fun n c => x (ix3 (i 0) n c)) (fun d c => wq (ix2 d c)) (fun d => bq (ix1 d))
    (fun d c => wk (ix2 d c)) (fun d => bk (ix1 d)) (fun d c => wv (ix2 d c)) (fun d => bv (ix1 d))
    (fun d c => wo (ix2 d c)) (fun d => bo (ix1 d)) (i 1) (i 2)

/-- `G` at an index written by coordinates. -/
theorem G_apply (x : (⟨3, ![64, 1024, 512]⟩ : Shape).Idx → EReal) (wq : (⟨2, ![512, 512]⟩ : Shape).Idx → EReal)
    (bq : (⟨1, ![512]⟩ : Shape).Idx → EReal) (wk : (⟨2, ![512, 512]⟩ : Shape).Idx → EReal)
    (bk : (⟨1, ![512]⟩ : Shape).Idx → EReal) (wv : (⟨2, ![512, 512]⟩ : Shape).Idx → EReal)
    (bv : (⟨1, ![512]⟩ : Shape).Idx → EReal) (wo : (⟨2, ![512, 512]⟩ : Shape).Idx → EReal)
    (bo : (⟨1, ![512]⟩ : Shape).Idx → EReal) (b : Fin 64) (n : Fin 1024) (d : Fin 512) :
    G x wq bq wk bk wv bv wo bo (ix3 b n d)
      = Cert.Attn.outR (fun n c => x (ix3 b n c)) (fun d c => wq (ix2 d c)) (fun d => bq (ix1 d))
          (fun d c => wk (ix2 d c)) (fun d => bk (ix1 d)) (fun d c => wv (ix2 d c)) (fun d => bv (ix1 d))
          (fun d c => wo (ix2 d c)) (fun d => bo (ix1 d)) n d := rfl

/-- The reference's result is `G` of its arguments. -/
theorem ref_is_G (x0 : (⟨3, ![64, 1024, 512]⟩ : Shape).Idx → EReal) (x1 : (⟨2, ![512, 512]⟩ : Shape).Idx → EReal)
    (x2 : (⟨1, ![512]⟩ : Shape).Idx → EReal) (x3 : (⟨2, ![512, 512]⟩ : Shape).Idx → EReal)
    (x4 : (⟨1, ![512]⟩ : Shape).Idx → EReal) (x5 : (⟨2, ![512, 512]⟩ : Shape).Idx → EReal)
    (x6 : (⟨1, ![512]⟩ : Shape).Idx → EReal) (x7 : (⟨2, ![512, 512]⟩ : Shape).Idx → EReal)
    (x8 : (⟨1, ![512]⟩ : Shape).Idx → EReal) :
    Cert.ReferenceIdeal.Read.val_main_v49 (F := Ideal) x0 x1 x2 x3 x4 x5 x6 x7 x8 = G x0 x1 x2 x3 x4 x5 x6 x7 x8 := by
  funext i
  obtain ⟨b, n, d, rfl⟩ : ∃ (b : Fin 64) (n : Fin 1024) (d : Fin 512), i = ix3 b n d := ⟨i 0, i 1, i 2, eq_ix3 i⟩
  exact (Cert.Attn.RefRead.ref_apply x0 x1 x2 x3 x4 x5 x6 x7 x8 b n d).trans (G_apply x0 x1 x2 x3 x4 x5 x6 x7 x8 b n d).symm

open Cert.KernelIdeal Cert.KernelIdeal.Gen Cert.KernelIdeal.HandValue in
/-- The kernel's result array is `G` of the arguments, given what the six staged arrays hold in terms of them
    (the activations unchanged; the fused weights the three transposed weight matrices side by side; the fused bias
    the three biases end to end; the output weights transposed; the output bias unchanged; the averaging matrix)
    and that the arguments are finite. -/
theorem kernel_is_G
    (A0 : S64x1024x512.Idx → EReal) (A1 : S512x1536.Idx → EReal) (A2 : S1x1536.Idx → EReal)
    (A3 : S512x512.Idx → EReal) (A4 : S1x512.Idx → EReal) (A5 : S16x1024.Idx → EReal)
    (x : (⟨3, ![64, 1024, 512]⟩ : Shape).Idx → EReal) (wq : (⟨2, ![512, 512]⟩ : Shape).Idx → EReal)
    (bq : (⟨1, ![512]⟩ : Shape).Idx → EReal) (wk : (⟨2, ![512, 512]⟩ : Shape).Idx → EReal)
    (bk : (⟨1, ![512]⟩ : Shape).Idx → EReal) (wv : (⟨2, ![512, 512]⟩ : Shape).Idx → EReal)
    (bv : (⟨1, ![512]⟩ : Shape).Idx → EReal) (wo : (⟨2, ![512, 512]⟩ : Shape).Idx → EReal)
    (bo : (⟨1, ![512]⟩ : Shape).Idx → EReal)
    (h0 : ∀ (b : Fin 64) (n : Fin 1024) (k : Fin 512), A0 (ix3 b n k) = x (ix3 b n k))
    (hq : ∀ (k d : Fin 512), A1 (ix2 k (Cert.Attn.col 0 d)) = wq (ix2 d k))
    (hk : ∀ (k d : Fin 512), A1 (ix2 k (Cert.Attn.col 1 d)) = wk (ix2 d k))
    (hv : ∀ (k d : Fin 512), A1 (ix2 k (Cert.Attn.col 2 d)) = wv (ix2 d k))
    (hbq : ∀ d : Fin 512, A2 (ix2 (0 : Fin 1) (Cert.Attn.col 0 d)) = bq (ix1 d))
    (hbk : ∀ d : Fin 512, A2 (ix2 (0 : Fin 1) (Cert.Attn.col 1 d)) = bk (ix1 d))
    (hbv : ∀ d : Fin 512, A2 (ix2 (0 : Fin 1) (Cert.Attn.col 2 d)) = bv (ix1 d))
    (hwo : ∀ (k d : Fin 512), A3 (ix2 k d) = wo (ix2 d k))
    (hbo : ∀ d : Fin 512, A4 (ix2 (0 : Fin 1) d) = bo (ix1 d))
    (hP : ∀ (a : Fin 16) (n : Fin 1024), A5 (ix2 a n) = Ideal.div (Cert.Attn.onehot n a) Cert.Attn.c64)
    (fx : ∀ i, ∃ r : ℝ, x i = (r : EReal)) (fwq : ∀ i, ∃ r : ℝ, wq i = (r : EReal)) (fbq : ∀ i, ∃ r : ℝ, bq i = (r : EReal))
    (fwk : ∀ i, ∃ r : ℝ, wk i = (r : EReal)) (fbk : ∀ i, ∃ r : ℝ, bk i = (r : EReal))
    (fwv : ∀ i, ∃ r : ℝ, wv i = (r : EReal)) (fbv : ∀ i, ∃ r : ℝ, bv i = (r : EReal))
    (fwo : ∀ i, ∃ r : ℝ, wo i = (r : EReal)) (fbo : ∀ i, ∃ r : ℝ, bo i = (r : EReal)) :
    wholeOut (F := Ideal) A0 A1 A2 A3 A4 A5 = G x wq bq wk bk wv bv wo bo := by
  funext i
  obtain ⟨b, n, d, rfl⟩ : ∃ (b : Fin 64) (n : Fin 1024) (d : Fin 512), i = ix3 b n d := ⟨i 0, i 1, i 2, eq_ix3 i⟩
  refine (wholeOut_row (F := Ideal) A0 A1 A2 A3 A4 A5 b (ix3 b n d) (ix3 (0 : Fin 1) n d) rfl rfl rfl).trans ?_
  refine (Cert.Attn.KPay.pay_apply (rowBlock (F := Ideal) A0 b) A1 A2 A3 A4 A5 n d).trans ?_
  rw [Cert.Attn.outKraw_eq_outK _ _ _ _ _ _ (fun d c => wq (ix2 d c)) (fun d => bq (ix1 d)) (fun d c => wk (ix2 d c))
    (fun d => bk (ix1 d)) (fun d c => wv (ix2 d c)) (fun d => bv (ix1 d)) (fun d c => wo (ix2 d c))
    (fun c d => hq c d) (fun c d => hk c d) (fun c d => hv c d) hbq hbk hbv (fun c d => hwo c d) hP]
  have hX : (fun (n : Fin 1024) (c : Fin 512) => (rowBlock (F := Ideal) A0 b (ix3 (0 : Fin 1) n c) : EReal)) = fun n c => x (ix3 b n c) :=
    funext fun n => funext fun c => h0 b n c
  have hB : (fun d : Fin 512 => A4 (ix2 (0 : Fin 1) d)) = fun d => bo (ix1 d) := funext hbo
  rw [hX, hB]
  refine Eq.trans ?_ (G_apply x wq bq wk bk wv bv wo bo b n d).symm
  exact Cert.Attn.outK_eq_outR (fun n c => x (ix3 b n c)) (fun d c => wq (ix2 d c)) (fun d => bq (ix1 d))
    (fun d c => wk (ix2 d c)) (fun d => bk (ix1 d)) (fun d c => wv (ix2 d c)) (fun d => bv (ix1 d))
    (fun d c => wo (ix2 d c)) (fun d => bo (ix1 d)) (fun n c => fx _) (fun d c => fwq _) (fun d => fbq _) (fun d c => fwk _)
    (fun d => fbk _) (fun d c => fwv _) (fun d => fbv _) (fun d c => fwo _) (fun d => fbo _) n d

end Cert.Attn.Bridge

end
-- ==== Proof.lean ====
/-
  Agent attention, one batch row per grid point, against its plain reference: the certificate.

  The kernel casts the activations to the narrower format, fuses the three projection weights (transposed) into one
  `[512, 1536]` matrix and their biases into one row, transposes the output weights, builds the `[16, 1024]`
  averaging matrix `[n / 64 = m] / 64`, and runs one grid point per batch row: a fused projection, its three column
  slices, the agents as the averaging matrix times the queries, two softmaxes of scaled scores, the gathered values,
  the output weights applied to the sixteen agent rows, the token weights, the bias. The reference computes the
  same attention with the agents as group means and the output weights applied last.

  Frames: the kernel program runs to its end, faults nowhere and leaves its arguments as launched, at the word-level
  values and at the extended reals (the launch of one region after three stretches of host operations, the body run
  once at a symbolic point); the reference program's run is its operations' composed term. Nothing was rewritten by
  the idealization, so the preserved-meaning claim is empty. Values: every entry of the kernel's result array is
  the body's arithmetic of one activation row and the five whole operands (the 64 rows cover the array), which read
  at an index is the fused arrangement `outKraw`; the host-prepared operands read at an index turn it into `outK`;
  the reference read at an index is `outR`; and on finite inputs — which is what the precondition says —
  `outK = outR`: a group mean is the product with the averaging matrix, and a product of three finite matrices
  may be bracketed either way.
-/
import proofs.«102939_j77532749627633_2_alg».proof.Defs
import proofs.«102939_j77532749627633_2_alg».proof.Proof.Gen.Kernel
import proofs.«102939_j77532749627633_2_alg».proof.Proof.Gen.KernelIdeal
import proofs.«102939_j77532749627633_2_alg».proof.Proof.Gen.ReferenceIdeal
import proofs.«102939_j77532749627633_2_alg».proof.Proof.Gen.Pre_finite_inputs
import proofs.«102939_j77532749627633_2_alg».proof.Proof.Gen.ReferenceIdeal.Read
import proofs.«102939_j77532749627633_2_alg».proof.Proof.KFrame
import proofs.«102939_j77532749627633_2_alg».proof.Proof.KIFrame
import proofs.«102939_j77532749627633_2_alg».proof.Proof.KValue
import proofs.«102939_j77532749627633_2_alg».proof.Proof.HostOps
import proofs.«102939_j77532749627633_2_alg».proof.Proof.Finite
import proofs.«102939_j77532749627633_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Hand.frame m ρ

/-- The idealized kernel program runs and keeps its arguments. -/
theorem frame_ki : Cert.frame_KernelIdeal := fun m ρ _ => Cert.KernelIdeal.Hand.frame m ρ

/-- The reference program runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the nine arguments, both programs end with the result array at `G` of the
    arguments: the kernel by its run read block by block, the body's arithmetic and the host-prepared operands read
    at an index, and the algebra on finite inputs; the reference by its run read one operation at a time. -/
theorem algebraic : Cert.algebraic_KernelIdeal_ReferenceIdeal := by
  intro m ρ m' ρ' hpre hagree
  refine ⟨fun c => Cert.Attn.Bridge.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ⟨(h c).1.trans ?_, (h c).2⟩)
      (Cert.KernelIdeal.HandValue.run (F := Ideal) m ρ)
    obtain ⟨f0, f1, f2, f3, f4, f5, f6, f7, f8⟩ := Cert.Attn.Finite.finite_of_pre _ _ _ _ _ _ _ _ _ (hpre c)
    exact Cert.Attn.Bridge.kernel_is_G _ _ _ _ _ _ _ _ _ _ _ _ _ _ _
      (Cert.Attn.HostOps.v0_apply m c) (Cert.Attn.HostOps.v5_q m c) (Cert.Attn.HostOps.v5_k m c) (Cert.Attn.HostOps.v5_v m c)
      (Cert.Attn.HostOps.v7_q m c) (Cert.Attn.HostOps.v7_k m c) (Cert.Attn.HostOps.v7_v m c)
      (Cert.Attn.HostOps.v9_apply m c) (Cert.Attn.HostOps.v10_apply m c) (Cert.Attn.HostOps.v23_apply m c)
      f0 f1 f2 f3 f4 f5 f6 f7 f8
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v49_eq, Cert.Attn.Bridge.ref_is_G, (hagree c).1, (hagree c).2.1, (hagree c).2.2.1,
      (hagree c).2.2.2.1, (hagree c).2.2.2.2.1, (hagree c).2.2.2.2.2.1, (hagree c).2.2.2.2.2.2.1,
      (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
